-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128 .f32) (main_arg7 : FVec F S128 .f32) (main_arg8 : FVec F S128x64 .f32) (main_arg9 : FVec F S64 .f32) (main_arg10 : FVec F S64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x256 .f32) (main_arg1 : IVec S2x1600000 32) (main_arg2 : FVec F S1600000 .f32) (main_arg3 : IVec S100000 32) (main_arg4 : FVec F S256x128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 130
  | .vmem => 22
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S100000, .i32⟩
  | 4 => ⟨S256x128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S1x1600000, .i32⟩
  | 13 => ⟨S1600000, .i32⟩
  | 14 => ⟨S100000, .i32⟩
  | 15 => ⟨S1700000, .i32⟩
  | 16 => ⟨S1x1600000, .i32⟩
  | 17 => ⟨S1600000, .i32⟩
  | 18 => ⟨S100000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S256x128, .bf16⟩
  | 59 => ⟨S128x64, .bf16⟩
  | 60 => ⟨S100000x128, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x1, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S1x128, .f32⟩
  | 82 => ⟨S100000x128, .f32⟩
  | 83 => ⟨S100000x64, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x64, .f32⟩
  | 93 => ⟨S1700000x1, .f32⟩
  | 94 => ⟨S1700000x64, .f32⟩
  | 95 => ⟨S1700000x64, .f32⟩
  | 96 => ⟨S_, .f32⟩
  | 97 => ⟨S100000x64, .f32⟩
  | 98 => ⟨S1700000x1, .i32⟩
  | 99 => ⟨S100000x64, .f32⟩
  | 100 => ⟨S1x64, .f32⟩
  | 101 => ⟨S100000x64, .f32⟩
  | 102 => ⟨S100000x64, .f32⟩
  | 103 => ⟨S1x64, .f32⟩
  | 104 => ⟨S1x64, .f32⟩
  | 105 => ⟨S100000x64, .f32⟩
  | 106 => ⟨S_, .f32⟩
  | 107 => ⟨S64x64, .f32⟩
  | 108 => ⟨S100000x1, .i32⟩
  | 109 => ⟨S64x64, .f32⟩
  | 110 => ⟨S_, .f32⟩
  | 111 => ⟨S100000, .f32⟩
  | 112 => ⟨S_, .f32⟩
  | 113 => ⟨S64, .f32⟩
  | 114 => ⟨S100000x1, .i32⟩
  | 115 => ⟨S64, .f32⟩
  | 116 => ⟨S_, .f32⟩
  | 117 => ⟨S64, .f32⟩
  | 118 => ⟨S64, .f32⟩
  | 119 => ⟨S64x1, .f32⟩
  | 120 => ⟨S64x64, .f32⟩
  | 121 => ⟨S64x64, .f32⟩
  | 122 => ⟨S64x64, .f32⟩
  | 123 => ⟨S64x64, .f32⟩
  | 124 => ⟨S_, .f32⟩
  | 125 => ⟨S64x64, .f32⟩
  | 126 => ⟨S64x64, .f32⟩
  | 127 => ⟨S_, .f32⟩
  | _ => ⟨S100000x256, .f32⟩

abbrev hbmTy0_1 (i : Nat) : BufTy := match i % 128 with
  | 0 => ⟨S64x64, .f32⟩
  | 1 => ⟨S64x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .bf16⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_cst_18 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  shapeCasts_S5000x64_S5000x64 : S5000x64.ShapeCasts S5000x64
  reduces_S5000x64_S5000 : S5000x64.Reduces [1] S5000
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 232
  | .vmem => 0
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S100000, .i32⟩
  | 4 => ⟨S256x128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S1x1600000, .i32⟩
  | 13 => ⟨S1600000, .i32⟩
  | 14 => ⟨S100000, .i32⟩
  | 15 => ⟨S1700000, .i32⟩
  | 16 => ⟨S1x1600000, .i32⟩
  | 17 => ⟨S1600000, .i32⟩
  | 18 => ⟨S100000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S100000x128, .f32⟩
  | 90 => ⟨S_, .f32⟩
  | 91 => ⟨S100000, .f32⟩
  | 92 => ⟨S100000x1, .f32⟩
  | 93 => ⟨S_, .f32⟩
  | 94 => ⟨S100000x1, .f32⟩
  | 95 => ⟨S100000x1, .f32⟩
  | 96 => ⟨S100000x128, .f32⟩
  | 97 => ⟨S100000x128, .f32⟩
  | 98 => ⟨S_, .f32⟩
  | 99 => ⟨S100000x1, .f32⟩
  | 100 => ⟨S100000x1, .f32⟩
  | 101 => ⟨S100000x1, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S1x1600000, .i32⟩
  | 111 => ⟨S1600000, .i32⟩
  | 112 => ⟨S100000, .i32⟩
  | 113 => ⟨S1700000, .i32⟩
  | 114 => ⟨S1x1600000, .i32⟩
  | 115 => ⟨S1600000, .i32⟩
  | 116 => ⟨S100000, .i32⟩
  | 117 => ⟨S1700000, .i32⟩
  | 118 => ⟨S_, .f32⟩
  | 119 => ⟨S100000, .f32⟩
  | 120 => ⟨S1700000, .f32⟩
  | 121 => ⟨S_, .f32⟩
  | 122 => ⟨S100000, .f32⟩
  | 123 => ⟨S1700000x1, .i32⟩
  | 124 => ⟨S100000, .f32⟩
  | 125 => ⟨S_, .f32⟩
  | 126 => ⟨S100000, .f32⟩
  | 127 => ⟨S100000, .i1⟩
  | _ => ⟨S100000x256, .f32⟩

abbrev hbmTy0_1 (i : Nat) : BufTy := match i % 128 with
  | 0 => ⟨S_, .f32⟩
  | 1 => ⟨S100000, .f32⟩
  | 2 => ⟨S100000, .f32⟩
  | 3 => ⟨S100000, .f32⟩
  | 4 => ⟨S_, .f32⟩
  | 5 => ⟨S_, .f32⟩
  | 6 => ⟨S100000, .f32⟩
  | 7 => ⟨S100000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000, .f32⟩
  | 17 => ⟨S1700000, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000, .f32⟩
  | 27 => ⟨S1700000, .f32⟩
  | 28 => ⟨S100000x64, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x64, .f32⟩
  | 38 => ⟨S1700000x1, .f32⟩
  | 39 => ⟨S1700000x64, .f32⟩
  | 40 => ⟨S1700000x64, .f32⟩
  | 41 => ⟨S_, .f32⟩
  | 42 => ⟨S100000x64, .f32⟩
  | 43 => ⟨S1700000x1, .i32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x64, .f32⟩
  | 58 => ⟨S100000x64, .f32⟩
  | 59 => ⟨S100000x64, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x64, .f32⟩
  | 67 => ⟨S100000x64, .f32⟩
  | 68 => ⟨S_, .f32⟩
  | 69 => ⟨S100000x1, .f32⟩
  | 70 => ⟨S100000x1, .f32⟩
  | 71 => ⟨S100000x1, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S64x64, .f32⟩
  | 82 => ⟨S100000x1, .i32⟩
  | 83 => ⟨S64x64, .f32⟩
  | 84 => ⟨S_, .f32⟩
  | 85 => ⟨S100000, .f32⟩
  | 86 => ⟨S_, .f32⟩
  | 87 => ⟨S64, .f32⟩
  | 88 => ⟨S100000x1, .i32⟩
  | 89 => ⟨S64, .f32⟩
  | 90 => ⟨S_, .f32⟩
  | 91 => ⟨S64, .f32⟩
  | 92 => ⟨S64, .f32⟩
  | 93 => ⟨S64x1, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S_, .f32⟩
  | 102 => ⟨S64x64, .f32⟩
  | 103 => ⟨S64x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call1_cst : Ref sig .tc := ⟨.hbm, 78, rfl⟩
abbrev main_call1_v0 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_cst_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_19 : Ref sig .tc := ⟨.hbm, 132, rfl⟩
abbrev main_call2_v0 : Ref sig .tc := ⟨.hbm, 133, rfl⟩
abbrev main_call2_v1 : Ref sig .tc := ⟨.hbm, 134, rfl⟩
abbrev main_v95 : Ref sig .tc := ⟨.hbm, 135, rfl⟩
abbrev main_c_20 : Ref sig .tc := ⟨.hbm, 136, rfl⟩
abbrev main_v96 : Ref sig .tc := ⟨.hbm, 137, rfl⟩
abbrev main_v97 : Ref sig .tc := ⟨.hbm, 138, rfl⟩
abbrev main_c_21 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_c_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_24 : Ref sig .tc := ⟨.hbm, 157, rfl⟩
abbrev main_v113 : Ref sig .tc := ⟨.hbm, 158, rfl⟩
abbrev main_v114 : Ref sig .tc := ⟨.hbm, 159, rfl⟩
abbrev main_c_25 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_26 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_call3_cst : Ref sig .tc := ⟨.hbm, 176, rfl⟩
abbrev main_call3_v0 : Ref sig .tc := ⟨.hbm, 177, rfl⟩
abbrev main_v129 : Ref sig .tc := ⟨.hbm, 178, rfl⟩
abbrev main_cst_27 : Ref sig .tc := ⟨.hbm, 179, rfl⟩
abbrev main_v130 : Ref sig .tc := ⟨.hbm, 180, rfl⟩
abbrev main_v131 : Ref sig .tc := ⟨.hbm, 181, rfl⟩
abbrev main_cst_28 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_29 : Ref sig .tc := ⟨.hbm, 188, rfl⟩
abbrev main_v137 : Ref sig .tc := ⟨.hbm, 189, rfl⟩
abbrev main_v138 : Ref sig .tc := ⟨.hbm, 190, rfl⟩
abbrev main_cst_30 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_31 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_32 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_33 : Ref sig .tc := ⟨.hbm, 212, rfl⟩
abbrev main_v157 : Ref sig .tc := ⟨.hbm, 213, rfl⟩
abbrev main_cst_34 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_35 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_36 : Ref sig .tc := ⟨.hbm, 226, rfl⟩
abbrev main_v168 : Ref sig .tc := ⟨.hbm, 227, rfl⟩
abbrev main_v169 : Ref sig .tc := ⟨.hbm, 228, rfl⟩
abbrev main_cst_37 : Ref sig .tc := ⟨.hbm, 229, rfl⟩
abbrev main_v170 : Ref sig .tc := ⟨.hbm, 230, rfl⟩
abbrev main_v171 : Ref sig .tc := ⟨.hbm, 231, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel program's run, with its result named.

  The program is ten segments: host operations, then the first projection, host operations (the first aggregation),
  the first normalisation, the second projection, host operations (the second aggregation), the second normalisation,
  and the pooling tail. Every weakly fair execution runs through them in order and ends with every buffer of a core at
  the contents the last boundary gives it: the fold of the segments over the launch memory. This module states that
  for the result buffer: it ends at the last boundary's contents of the pooled, squashed array, and the twelve
  arguments end as launched.
-/
import proofs.«113828_j22660247453949_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at what the last
    segment boundary holds there, and the arguments end unchanged. -/
theorem run : θ_run defs (onTc (τ := τ) (main (F := F))) ⟨m, fun _ => 0, ρ⟩ (fun r => ∀ c : Dev nD,
      r.2.mem ((c.tc : Thread nD τ).loc main_v94) = W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.Gcn.KernelRun

end
-- ==== Proof.KernelKeep.lean ====
/-
  Which buffers a segment of the kernel's program leaves alone.

  The program is host operations and four kernel launches in a row. A buffer that no operation of a stretch of host
  operations writes holds after the stretch what it held before; a buffer that is not one of a launch's arrays holds
  after the launch what it held before. These are the steps by which a value computed early (the edge indices, the
  edge normalisation, an argument) is carried to the later segment that reads it.
-/
import proofs.«113828_j22660247453949_1_alg».proof.Proof.Gen.KernelIdeal.Frame
import Idealize.ShloMosaic.Lib.StableHlo.Run

noncomputable section

namespace Cert.Gcn.KernelKeep

open Cert.KernelIdeal Cert.KernelIdeal.Gen Idealize.ShloMosaic Idealize.ShloMosaic.TcCoe Idealize.SL.Sem
open Idealize.ShloMosaic.StableHlo

/-- Closes "no operation of the named list writes this buffer": the list is unfolded, each operation's written buffer
    is named, and the buffers are compared. -/
syntax "not_written " ident : tactic
macro_rules
  | `(tactic| not_written $ops:ident) => `(tactic| (
      refine List.forall_iff_forall_mem.mp ?_
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

variable {F : FTy → Type} [FloatOps F]
variable (m : (ℓ : Loc nD τ sig) → Buf (Elt F) ℓ) (ρ : Dev nD → PrngReg) (c : Dev nD)

/-- From the launch to the first projection's entry: three stretches of host operations. -/
theorem from_launch (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = m ((c : Thread nD τ).loc b) :=
  (StableHlo.after_of_forall_not_mem _ _ h2).trans
    ((StableHlo.after_of_forall_not_mem _ _ h1).trans (StableHlo.after_of_forall_not_mem _ _ h0))

/-- Across the first projection. -/
theorem across0 (b : Ref sig .tc) (hb : ∀ w, Pipeline.arrRef spec0 w ≠ b) :
    W4 m ρ c (Proc.devRef .tc b) = W3 m ρ c (Proc.devRef .tc b) := W4_of_ne m ρ c b hb

/-- Across the first aggregation's host operations. -/
theorem across_host1 (b : Ref sig .tc)
    (h : ∀ op ∈ (hostOps1 : List (HloOp τ sig (Elt F))), Proc.devRef .tc b ∉ op.writes) :
    W5 m ρ c (Proc.devRef .tc b) = W4 m ρ c (Proc.devRef .tc b) := StableHlo.after_of_forall_not_mem _ _ h

/-- Across the first normalisation. -/
theorem across1 (b : Ref sig .tc) (hb : ∀ w, Pipeline.arrRef spec1 w ≠ b) :
    W6 m ρ c (Proc.devRef .tc b) = W5 m ρ c (Proc.devRef .tc b) := W6_of_ne m ρ c b hb

/-- Across the second projection. -/
theorem across2 (b : Ref sig .tc) (hb : ∀ w, Pipeline.arrRef spec2 w ≠ b) :
    W7 m ρ c (Proc.devRef .tc b) = W6 m ρ c (Proc.devRef .tc b) := W7_of_ne m ρ c b hb

/-- Across the second aggregation's host operations. -/
theorem across_host3 (b : Ref sig .tc)
    (h : ∀ op ∈ (hostOps3 : List (HloOp τ sig (Elt F))), Proc.devRef .tc b ∉ op.writes) :
    W8 m ρ c (Proc.devRef .tc b) = W7 m ρ c (Proc.devRef .tc b) := StableHlo.after_of_forall_not_mem _ _ h

/-- Across the second normalisation. -/
theorem across3 (b : Ref sig .tc) (hb : ∀ w, Pipeline.arrRef spec3 w ≠ b) :
    W9 m ρ c (Proc.devRef .tc b) = W8 m ρ c (Proc.devRef .tc b) := W9_of_ne m ρ c b hb

end Cert.Gcn.KernelKeep

end
-- ==== Proof.Stages.lean ====
/-
  The host stages the two programs share, each as one function of the arrays it reads.

  Both programs compute the same chain: the edge list with a self loop appended per node gives a source index
  `row`, a target index `col` and a normalised weight `nrm` per edge; a layer projects the node features, gathers
  the projected rows at `row`, scales each by its edge's weight, adds them up at `col`, adds a bias, clips at zero
  and normalises every row; after two layers the node rows are averaged per graph and squashed by the logistic
  function. The reference spells every step as a host operation; the kernel's program spells the gathering, scaling
  and adding, and the pooling, by the very same host operations and hands the projections and normalisations to
  kernels. This module names the shared steps as functions, so that each program's result is a composition of them.
-/
import proofs.«113828_j22660247453949_1_alg».proof.ReferenceIdeal
import proofs.«113828_j22660247453949_1_alg».proof.Proof.Gen.ReferenceIdeal

noncomputable section

namespace Cert.Gcn.Stages

open Cert.ReferenceIdeal Cert.ReferenceIdeal.Gen Idealize.ShloMosaic Idealize.ShloMosaic.TcCoe

variable {F : FTy → Type} [FloatOps F]

/-- An index vector with its negative entries wrapped around by the number of nodes (how jax reads an index). -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32)))
    (addi i (broadcastInDim S1700000 ![] bcast_S_S1700000 (constantI S_ 32 100000#32))) i

/-- The source index of every edge: row 0 of the edge list, then one self loop per node. -/
def rowIdx (ei : (⟨S2x1600000, .i32⟩ : BufTy).Contents (Elt F)) : (⟨S1700000, .i32⟩ : BufTy).Contents (Elt F) :=
  concatenate S1700000 0
    [⟨S1600000, (shapeCast _ (extractStridedSlice S1x1600000 ![0, 0] ei slices_S2x1600000_S1x1600000_0_0) shapeCasts_S1x1600000_S1600000)⟩,
     ⟨S100000, (iotaInDim S100000 32 0)⟩] concatenates_S1600000_S100000_S1700000_d0

/-- The target index of every edge: row 1 of the edge list, then one self loop per node. -/
def colIdx (ei : (⟨S2x1600000, .i32⟩ : BufTy).Contents (Elt F)) : (⟨S1700000, .i32⟩ : BufTy).Contents (Elt F) :=
  concatenate S1700000 0
    [⟨S1600000, (shapeCast _ (extractStridedSlice S1x1600000 ![1, 0] ei slices_S2x1600000_S1x1600000_1_0) shapeCasts_S1x1600000_S1600000)⟩,
     ⟨S100000, (iotaInDim S100000 32 0)⟩] concatenates_S1600000_S100000_S1700000_d0

/-- The weight of every edge: the given weights, then one for each self loop. -/
def edgeWeight (ew : (⟨S1600000, .f32⟩ : BufTy).Contents (Elt F)) : (⟨S1700000, .f32⟩ : BufTy).Contents (Elt F) :=
  concatenate S1700000 0
    [⟨S1600000, ew⟩, ⟨S100000, (broadcastInDim S100000 ![] bcast_S_S100000 (constant S_ .f32 0x3F800000#32))⟩]
    concatenates_S1600000_S100000_S1700000_d0

/-- The weighted in-degree of every node: the edge weights added up at their targets. -/
def degree (ei : (⟨S2x1600000, .i32⟩ : BufTy).Contents (Elt F)) (ew : (⟨S1600000, .f32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (colIdx ei)) (edgeWeight ew)

/-- The reciprocal root of the degree (clipped below at epsilon) where the degree is positive, zero elsewhere. -/
def invSqrtDeg (ei : (⟨S2x1600000, .i32⟩ : BufTy).Contents (Elt F)) (ew : (⟨S1600000, .f32⟩ : BufTy).Contents (Elt F)) : (⟨S100000, .f32⟩ : BufTy).Contents (Elt F) :=
  select (cmpf .ogt (degree ei ew) (broadcastInDim S100000 ![] bcast_S_S100000 (constant S_ .f32 0x00000000#32)))
    (Host.rsqrt (maximumf (degree ei ew) (broadcastInDim S100000 ![] bcast_S_S100000 (constant S_ .f32 0x3727C5AC#32))))
    (broadcastInDim S100000 ![] bcast_S_S100000 (id (constant S_ .f32 0x00000000#32)))

/-- The symmetric normalisation of every edge: its weight times the reciprocal root degrees of its two ends. -/
def edgeNorm (ei : (⟨S2x1600000, .i32⟩ : BufTy).Contents (Elt F)) (ew : (⟨S1600000, .f32⟩ : BufTy).Contents (Elt F)) : (⟨S1700000, .f32⟩ : BufTy).Contents (Elt F) :=
  mulf
    (mulf
      (Host.gather gather_S100000_S1700000x1_S1700000_n_0_n_n_0_1_1 (invSqrtDeg ei ew)
        (broadcastInDim S1700000x1 ![0] bcast_S1700000_S1700000x1_0 (wrap (rowIdx ei))))
      (edgeWeight ew))
    (Host.gather gather_S100000_S1700000x1_S1700000_n_0_n_n_0_1_1 (invSqrtDeg ei ew)
      (broadcastInDim S1700000x1 ![0] bcast_S1700000_S1700000x1_0 (wrap (colIdx ei))))

/-- One aggregation at width 128: the rows of `h` gathered at `row`, each scaled by its edge's weight, added up at
    `col` into zeros, and the bias `b` added to every row. -/
def aggregate128 (h : (⟨S100000x128, .f32⟩ : BufTy).Contents (Elt F)) (row col : (⟨S1700000, .i32⟩ : BufTy).Contents (Elt F))
    (nrm : (⟨S1700000, .f32⟩ : BufTy).Contents (Elt F)) (b : (⟨S128, .f32⟩ : BufTy).Contents (Elt F)) : (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 col)
      (mulf
        (Host.gather gather_S100000x128_S1700000x1_S1700000x128_1_0_n_n_0_1_1128 h
          (broadcastInDim S1700000x1 ![0] bcast_S1700000_S1700000x1_0 (wrap row)))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The same at width 64. -/
def aggregate64 (h : (⟨S100000x64, .f32⟩ : BufTy).Contents (Elt F)) (row col : (⟨S1700000, .i32⟩ : BufTy).Contents (Elt F))
    (nrm : (⟨S1700000, .f32⟩ : BufTy).Contents (Elt F)) (b : (⟨S64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 col)
      (mulf
        (Host.gather gather_S100000x64_S1700000x1_S1700000x64_1_0_n_n_0_1_164 h
          (broadcastInDim S1700000x1 ![0] bcast_S1700000_S1700000x1_0 (wrap row)))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- The mean of every row of a 128-column array, kept as a column: the row's sum from zero, divided by 128. -/
def rowMean128 (x : (⟨S100000x128, .f32⟩ : BufTy).Contents (Elt F)) : (⟨S100000x1, .f32⟩ : BufTy).Contents (Elt F) :=
  Host.divf
    (broadcastInDim S100000x1 ![0] bcast_S100000_S100000x1_0
      (Host.reduceAdd x (constant S_ .f32 0x00000000#32) reducesTo_S100000x128_S100000_d1 h_S_))
    (broadcastInDim S100000x1 ![] bcast_S_S100000x1 (constant S_ .f32 0x43000000#32))

/-- A 128-column array clipped at zero, minus its rows' means. -/
def centered128 (a : (⟨S100000x128, .f32⟩ : BufTy).Contents (Elt F)) : (⟨S100000x128, .f32⟩ : BufTy).Contents (Elt F) :=
  subf (maximumf a (broadcastInDim S100000x128 ![] bcast_S_S100000x128 (constant S_ .f32 0x00000000#32)))
    (broadcastInDim S100000x128 ![0, 1] bcast_S100000x1_S100000x128_0_1
      (rowMean128 (maximumf a (broadcastInDim S100000x128 ![] bcast_S_S100000x128 (constant S_ .f32 0x00000000#32)))))

/-- The reference's clip-and-normalise at width 128: the centred rows times the reciprocal root of their mean square
    plus epsilon, times the scale `g` and plus the shift `bt` of each column. -/
def hostNorm128 (a : (⟨S100000x128, .f32⟩ : BufTy).Contents (Elt F)) (g bt : (⟨S128, .f32⟩ : BufTy).Contents (Elt F)) : (⟨S100000x128, .f32⟩ : BufTy).Contents (Elt F) :=
  addf
    (mulf
      (mulf (centered128 a)
        (broadcastInDim S100000x128 ![0, 1] bcast_S100000x1_S100000x128_0_1
          (Host.rsqrt
            (addf (rowMean128 (mulf (centered128 a) (centered128 a)))
              (broadcastInDim S100000x1 ![] bcast_S_S100000x1 (constant S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 bt))

/-- The mean of every row of a 64-column array, kept as a column: the row's sum from zero, divided by 64. -/
def rowMean64 (x : (⟨S100000x64, .f32⟩ : BufTy).Contents (Elt F)) : (⟨S100000x1, .f32⟩ : BufTy).Contents (Elt F) :=
  Host.divf
    (broadcastInDim S100000x1 ![0] bcast_S100000_S100000x1_0
      (Host.reduceAdd x (constant S_ .f32 0x00000000#32) reducesTo_S100000x64_S100000_d1 h_S_))
    (broadcastInDim S100000x1 ![] bcast_S_S100000x1 (constant S_ .f32 0x42800000#32))

/-- A 64-column array clipped at zero, minus its rows' means. -/
def centered64 (a : (⟨S100000x64, .f32⟩ : BufTy).Contents (Elt F)) : (⟨S100000x64, .f32⟩ : BufTy).Contents (Elt F) :=
  subf (maximumf a (broadcastInDim S100000x64 ![] bcast_S_S100000x64 (constant S_ .f32 0x00000000#32)))
    (broadcastInDim S100000x64 ![0, 1] bcast_S100000x1_S100000x64_0_1
      (rowMean64 (maximumf a (broadcastInDim S100000x64 ![] bcast_S_S100000x64 (constant S_ .f32 0x00000000#32)))))

/-- The reference's clip-and-normalise at width 64. -/
def hostNorm64 (a : (⟨S100000x64, .f32⟩ : BufTy).Contents (Elt F)) (g bt : (⟨S64, .f32⟩ : BufTy).Contents (Elt F)) : (⟨S100000x64, .f32⟩ : BufTy).Contents (Elt F) :=
  addf
    (mulf
      (mulf (centered64 a)
        (broadcastInDim S100000x64 ![0, 1] bcast_S100000x1_S100000x64_0_1
          (Host.rsqrt
            (addf (rowMean64 (mulf (centered64 a) (centered64 a)))
              (broadcastInDim S100000x1 ![] bcast_S_S100000x1 (constant S_ .f32 0x3727C5AC#32))))))
      (broadcastInDim S100000x64 ![0, 1] bcast_S1x64_S100000x64_0_1 (broadcastInDim S1x64 ![1] bcast_S64_S1x64_1 g)))
    (broadcastInDim S100000x64 ![0, 1] bcast_S1x64_S100000x64_0_1 (broadcastInDim S1x64 ![1] bcast_S64_S1x64_1 bt))

/-- The pooling tail: the node rows added up per graph and divided by the graph's node count (at least one), then the
    logistic function 1 / (1 + exp (−x)). -/
def poolTail (h : (⟨S100000x64, .f32⟩ : BufTy).Contents (Elt F)) (batch : (⟨S100000, .i32⟩ : BufTy).Contents (Elt F)) : (⟨S64x64, .f32⟩ : BufTy).Contents (Elt F) :=
  Host.divf (broadcastInDim S64x64 ![] bcast_S_S64x64 (constant S_ .f32 0x3F800000#32))
    (addf (broadcastInDim S64x64 ![] bcast_S_S64x64 (constant S_ .f32 0x3F800000#32))
      (Host.exp (Host.negf
        (Host.divf
          (Host.scatterAdd scatter_S64x64_S100000x1_S100000x64_1_0_0_1
            (broadcastInDim S64x64 ![] bcast_S_S64x64 (constant S_ .f32 0x00000000#32))
            (broadcastInDim S100000x1 ![0] bcast_S100000_S100000x1_0 batch) h)
          (broadcastInDim S64x64 ![0, 1] bcast_S64x1_S64x64_0_1
            (broadcastInDim S64x1 ![0] bcast_S64_S64x1_0
              (maximumf
                (Host.scatterAdd scatter_S64_S100000x1_S100000_n_0_0_1
                  (broadcastInDim S64 ![] bcast_S_S64 (constant S_ .f32 0x00000000#32))
                  (broadcastInDim S100000x1 ![0] bcast_S100000_S100000x1_0 batch)
                  (broadcastInDim S100000 ![] bcast_S_S100000 (constant S_ .f32 0x3F800000#32)))
                (broadcastInDim S64 ![] bcast_S_S64 (constant S_ .f32 0x3F800000#32)))))))))

end Cert.Gcn.Stages

end
-- ==== Proof.KernelEdges.lean ====
/-
  What the kernel's program holds when the first projection is entered.

  Before its first launch the program computes, by host operations, the source index, the target index and the
  normalisation of every edge, and rounds the two weight matrices to the matrix unit's input format. These are the
  shared stage functions of the edge list and the edge weights; the arguments themselves are untouched. The host
  operations come in three stretches: the indices, the weights and the degrees; the choice between the reciprocal
  root degree and zero; and the gathers and products that make the normalisation. Each stretch is read at the buffers
  the next one needs.
-/
import proofs.«113828_j22660247453949_1_alg».proof.Proof.KernelKeep
import proofs.«113828_j22660247453949_1_alg».proof.Proof.Stages
import Idealize.ShloMosaic.PureOps.Ideal

noncomputable section

namespace Cert.Gcn.KernelEdges

open Cert.KernelIdeal Cert.KernelIdeal.Gen Idealize.ShloMosaic Idealize.ShloMosaic.TcCoe Idealize.SL.Sem
open Idealize.ShloMosaic.StableHlo Cert.Gcn.KernelKeep Cert.Gcn.Stages

variable (m : (ℓ : Loc nD τ sig) → Buf (Elt Ideal) ℓ) (ρ : Dev nD → PrngReg) (c : Dev nD)

/-! ## The arguments, as launched -/

theorem arg0 : W3 m ρ c (Proc.devRef .tc main_arg0) = (m ((c : Thread nD τ).loc main_arg0)) :=
  from_launch m ρ c main_arg0 (by not_written hostOps0) (by not_written hostOps0_1) (by not_written hostOps0_2)
theorem arg3 : W3 m ρ c (Proc.devRef .tc main_arg3) = (m ((c : Thread nD τ).loc main_arg3)) :=
  from_launch m ρ c main_arg3 (by not_written hostOps0) (by not_written hostOps0_1) (by not_written hostOps0_2)
theorem arg5 : W3 m ρ c (Proc.devRef .tc main_arg5) = (m ((c : Thread nD τ).loc main_arg5)) :=
  from_launch m ρ c main_arg5 (by not_written hostOps0) (by not_written hostOps0_1) (by not_written hostOps0_2)
theorem arg6 : W3 m ρ c (Proc.devRef .tc main_arg6) = (m ((c : Thread nD τ).loc main_arg6)) :=
  from_launch m ρ c main_arg6 (by not_written hostOps0) (by not_written hostOps0_1) (by not_written hostOps0_2)
theorem arg7 : W3 m ρ c (Proc.devRef .tc main_arg7) = (m ((c : Thread nD τ).loc main_arg7)) :=
  from_launch m ρ c main_arg7 (by not_written hostOps0) (by not_written hostOps0_1) (by not_written hostOps0_2)
theorem arg9 : W3 m ρ c (Proc.devRef .tc main_arg9) = (m ((c : Thread nD τ).loc main_arg9)) :=
  from_launch m ρ c main_arg9 (by not_written hostOps0) (by not_written hostOps0_1) (by not_written hostOps0_2)
theorem arg10 : W3 m ρ c (Proc.devRef .tc main_arg10) = (m ((c : Thread nD τ).loc main_arg10)) :=
  from_launch m ρ c main_arg10 (by not_written hostOps0) (by not_written hostOps0_1) (by not_written hostOps0_2)
theorem arg11 : W3 m ρ c (Proc.devRef .tc main_arg11) = (m ((c : Thread nD τ).loc main_arg11)) :=
  from_launch m ρ c main_arg11 (by not_written hostOps0) (by not_written hostOps0_1) (by not_written hostOps0_2)

/-! ## After the first stretch: indices, weights, degrees -/

/-- The source index of every edge. -/
theorem row1 : W1 m ρ c (Proc.devRef .tc main_v3) = rowIdx (F := Ideal) (m ((c : Thread nD τ).loc main_arg1)) := by
  show StableHlo.after hostOps0 (W0 m ρ c) (Proc.devRef .tc main_v3) = _
  after_results_simp
  rfl

/-- The target index of every edge. -/
theorem col1 : W1 m ρ c (Proc.devRef .tc main_v7) = colIdx (F := Ideal) (m ((c : Thread nD τ).loc main_arg1)) := by
  show StableHlo.after hostOps0 (W0 m ρ c) (Proc.devRef .tc main_v7) = _
  after_results_simp
  rfl

/-- The weight of every edge. -/
theorem weight1' : W1 m ρ c (Proc.devRef .tc main_v9) = edgeWeight (F := Ideal) (m ((c : Thread nD τ).loc main_arg2)) := by
  show StableHlo.after hostOps0 (W0 m ρ c) (Proc.devRef .tc main_v9) = _
  after_results_simp
  rfl

/-- Where the degree is positive. -/
theorem pos1 : W1 m ρ c (Proc.devRef .tc main_v14)
    = cmpf .ogt (degree (F := Ideal) (m ((c : Thread nD τ).loc main_arg1)) (m ((c : Thread nD τ).loc main_arg2)))
        (broadcastInDim S100000 ![] bcast_S_S100000 (constant (F := Ideal) S_ .f32 0x00000000#32)) := by
  show StableHlo.after hostOps0 (W0 m ρ c) (Proc.devRef .tc main_v14) = _
  after_results_simp
  rfl

/-- The reciprocal root of the degree clipped below at epsilon. -/
theorem rsq1 : W1 m ρ c (Proc.devRef .tc main_v17)
    = Host.rsqrt (maximumf (degree (F := Ideal) (m ((c : Thread nD τ).loc main_arg1)) (m ((c : Thread nD τ).loc main_arg2)))
        (broadcastInDim S100000 ![] bcast_S_S100000 (constant (F := Ideal) S_ .f32 0x3727C5AC#32))) := by
  show StableHlo.after hostOps0 (W0 m ρ c) (Proc.devRef .tc main_v17) = _
  after_results_simp
  rfl

/-- The zero the choice falls back to. -/
theorem zero1 : W1 m ρ c (Proc.devRef .tc main_cst_3) = constant (F := Ideal) S_ .f32 0x00000000#32 := by
  show StableHlo.after hostOps0 (W0 m ρ c) (Proc.devRef .tc main_cst_3) = _
  after_results_simp

/-! ## After the second stretch: the reciprocal root degree, or zero -/

theorem row2 : W2 m ρ c (Proc.devRef .tc main_v3) = rowIdx (F := Ideal) (m ((c : Thread nD τ).loc main_arg1)) :=
  (StableHlo.after_of_forall_not_mem _ _ (by not_written hostOps0_1)).trans (row1 m ρ c)
theorem col2 : W2 m ρ c (Proc.devRef .tc main_v7) = colIdx (F := Ideal) (m ((c : Thread nD τ).loc main_arg1)) :=
  (StableHlo.after_of_forall_not_mem _ _ (by not_written hostOps0_1)).trans (col1 m ρ c)
theorem weight2' : W2 m ρ c (Proc.devRef .tc main_v9) = edgeWeight (F := Ideal) (m ((c : Thread nD τ).loc main_arg2)) :=
  (StableHlo.after_of_forall_not_mem _ _ (by not_written hostOps0_1)).trans (weight1' m ρ c)

/-- The second stretch chooses, entry by entry, between its second and third operand: whatever the first stretch left in
    the three buffers it reads, it leaves the choice in its result buffer. -/
theorem choice (V : Valuation τ sig (Elt Ideal)) (P : (⟨S100000, .i1⟩ : BufTy).Contents (Elt Ideal))
    (R : (⟨S100000, .f32⟩ : BufTy).Contents (Elt Ideal)) (z : (⟨S_, .f32⟩ : BufTy).Contents (Elt Ideal))
    (h14 : V (Proc.devRef .tc main_v14) = P) (h17 : V (Proc.devRef .tc main_v17) = R) (h3 : V (Proc.devRef .tc main_cst_3) = z) :
    StableHlo.after hostOps0_1 V (Proc.devRef .tc main_v18) = select P R (broadcastInDim S100000 ![] bcast_S_S100000 (id z)) := by
  after_results_simp
  rw [h14, h17, h3]
  rfl

/-- The reciprocal root of every node's degree where the degree is positive, zero elsewhere. -/
theorem inv2 : W2 m ρ c (Proc.devRef .tc main_v18) = invSqrtDeg (F := Ideal) (m ((c : Thread nD τ).loc main_arg1)) (m ((c : Thread nD τ).loc main_arg2)) :=
  (choice (W1 m ρ c) _ _ _ (pos1 m ρ c) (rsq1 m ρ c) (zero1 m ρ c)).trans rfl

/-! ## At the first projection's entry -/

/-- The source index of every edge. -/
theorem row : W3 m ρ c (Proc.devRef .tc main_v3) = rowIdx (F := Ideal) (m ((c : Thread nD τ).loc main_arg1)) :=
  (StableHlo.after_of_forall_not_mem _ _ (by not_written hostOps0_2)).trans (row2 m ρ c)

/-- The target index of every edge. -/
theorem col : W3 m ρ c (Proc.devRef .tc main_v7) = colIdx (F := Ideal) (m ((c : Thread nD τ).loc main_arg1)) :=
  (StableHlo.after_of_forall_not_mem _ _ (by not_written hostOps0_2)).trans (col2 m ρ c)

/-- The normalisation of every edge. -/
theorem nrm : W3 m ρ c (Proc.devRef .tc main_v34) = edgeNorm (F := Ideal) (m ((c : Thread nD τ).loc main_arg1)) (m ((c : Thread nD τ).loc main_arg2)) := by
  have h18 := inv2 m ρ c
  have h3 := row2 m ρ c
  have h7 := col2 m ρ c
  have h9 := weight2' m ρ c
  show StableHlo.after hostOps0_2 (W2 m ρ c) (Proc.devRef .tc main_v34) = _
  generalize W2 m ρ c = V at h18 h3 h7 h9 ⊢
  after_results_simp
  rw [h18, h3, h7, h9]
  rfl

/-- The first weight matrix: rounding to the matrix unit's format changes no exact value. -/
theorem weight1 : W3 m ρ c (Proc.devRef .tc main_v35) = ((m ((c : Thread nD τ).loc main_arg4)) : S256x128.Idx → EReal) := by
  have h4 : W2 m ρ c (Proc.devRef .tc main_arg4) = (m ((c : Thread nD τ).loc main_arg4)) :=
    (StableHlo.after_of_forall_not_mem _ _ (by not_written hostOps0_1)).trans (StableHlo.after_of_forall_not_mem _ _ (by not_written hostOps0))
  show StableHlo.after hostOps0_2 (W2 m ρ c) (Proc.devRef .tc main_v35) = _
  generalize W2 m ρ c = V at h4 ⊢
  after_results_simp
  rw [h4]
  rfl

/-- The second weight matrix likewise. -/
theorem weight2 : W3 m ρ c (Proc.devRef .tc main_v36) = ((m ((c : Thread nD τ).loc main_arg8)) : S128x64.Idx → EReal) := by
  have h8 : W2 m ρ c (Proc.devRef .tc main_arg8) = (m ((c : Thread nD τ).loc main_arg8)) :=
    (StableHlo.after_of_forall_not_mem _ _ (by not_written hostOps0_1)).trans (StableHlo.after_of_forall_not_mem _ _ (by not_written hostOps0))
  show StableHlo.after hostOps0_2 (W2 m ρ c) (Proc.devRef .tc main_v36) = _
  generalize W2 m ρ c = V at h8 ⊢
  after_results_simp
  rw [h8]
  rfl

end Cert.Gcn.KernelEdges

end
-- ==== Proof.Spec.lean ====
/-
  The two array functions the kernels of this program compute, index by index, on the extended reals.

  A graph-convolution layer here is: project every node's features by a weight matrix, gather, scale and add the
  projected rows along the edges, add a bias, clip at zero and normalise every row. The gathering and adding is the
  same host code on both sides of the claim; what the two sides spell differently is the projection (a matrix unit's
  product, one block of rows at a time, against one host contraction) and the clip-and-normalise of a row (vector
  operations on a block of rows against host operations on the whole array). This module states those two as plain
  functions of whole arrays: entry (p, q) of the projection is the sum over k of x[p, k] · w[k, q]; entry (p, q) of the
  normalised array depends on row p only.
-/
import Idealize.ShloMosaic.PureOps.Ideal
import Idealize.ShloMosaic.Lib.ValueIdx

noncomputable section

namespace Cert.Gcn

open Idealize.ShloMosaic Idealize.ShloMosaic.ValueIdx

/-- The product of an M-by-K array with a K-by-N array: entry (p, q) is the sum over k of x[p, k] · w[k, q]. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply {M K N : Nat} (x : (⟨2, ![M, K]⟩ : Shape).Idx → EReal) (w : (⟨2, ![K, N]⟩ : Shape).Idx → EReal)
    (p : Fin M) (q : Fin N) : matProd x w (ix2 p q) = ∑ k : Fin K, x (ix2 p k) * w (ix2 k q) := rfl

/-- One entry of a row clipped at zero and normalised. With r k = max (row k) 0, the mean μ = (Σ r k) / cnt and the
    mean squared deviation σ² = (Σ (r k − μ)²) / cnt, entry q is (r q − μ) · rsqrt (σ² + ε) · g + b, every operation the
    exact one on the extended reals and in this order. -/
def reluNormEntry {n : Nat} (cnt eps : EReal) (row : Fin n → EReal) (g b : EReal) (q : Fin n) : EReal :=
  (max (row q) 0 - Ideal.div (∑ k : Fin n, max (row k) 0) cnt)
      * Ideal.rsqrt (Ideal.div (∑ k : Fin n, (max (row k) 0 - Ideal.div (∑ k : Fin n, max (row k) 0) cnt)
          * (max (row k) 0 - Ideal.div (∑ k : Fin n, max (row k) 0) cnt)) cnt + eps)
      * g + b

/-- Every row of an M-by-n array clipped at zero and normalised, with a scale and a shift per column (held as one-row
    arrays). -/
def reluNorm {M n : Nat} (cnt eps : EReal) (a : (⟨2, ![M, n]⟩ : Shape).Idx → EReal)
    (g b : (⟨2, ![1, n]⟩ : Shape).Idx → EReal) : (⟨2, ![M, n]⟩ : Shape).Idx → EReal :=
  fun i => reluNormEntry cnt eps (fun k => a (ix2 (i 0) k)) (g (ix2 (0 : Fin 1) (i 1))) (b (ix2 (0 : Fin 1) (i 1))) (i 1)

theorem reluNorm_apply {M n : Nat} (cnt eps : EReal) (a : (⟨2, ![M, n]⟩ : Shape).Idx → EReal)
    (g b : (⟨2, ![1, n]⟩ : Shape).Idx → EReal) (p : Fin M) (q : Fin n) :
    reluNorm cnt eps a g b (ix2 p q)
      = reluNormEntry cnt eps (fun k => a (ix2 p k)) (g (ix2 (0 : Fin 1) q)) (b (ix2 (0 : Fin 1) q)) q := rfl

end Cert.Gcn

end
-- ==== Proof.Net.lean ====
/-
  The whole network as one function of the twelve arguments, on the extended reals.

  Two layers, each: project the node rows by the layer's weight matrix, aggregate the projected rows along the edges
  (with the edge indices and normalisation computed from the edge list and the edge weights), clip at zero and
  normalise every row with the layer's scale and shift; then pool the nodes per graph and squash. Both programs of the
  claim compute this function; this module only names it.
-/
import proofs.«113828_j22660247453949_1_alg».proof.Proof.Stages
import proofs.«113828_j22660247453949_1_alg».proof.Proof.Spec

noncomputable section

namespace Cert.Gcn.Net

open Cert.ReferenceIdeal Cert.ReferenceIdeal.Gen Cert.Gcn.Stages Idealize.ShloMosaic Idealize.ShloMosaic.TcCoe

/-- A vector of 128 entries is a one-row array of 128 columns, and one of 64 entries a one-row array of 64. -/
theorem row128 : S128.ShapeCasts S1x128 := by decide
theorem row64 : S64.ShapeCasts S1x64 := by decide

variable (x0 : (⟨S100000x256, .f32⟩ : BufTy).Contents (Elt Ideal)) (x1 : (⟨S2x1600000, .i32⟩ : BufTy).Contents (Elt Ideal)) (x2 : (⟨S1600000, .f32⟩ : BufTy).Contents (Elt Ideal))
  (x3 : (⟨S100000, .i32⟩ : BufTy).Contents (Elt Ideal)) (x4 : (⟨S256x128, .f32⟩ : BufTy).Contents (Elt Ideal)) (x5 x6 x7 : (⟨S128, .f32⟩ : BufTy).Contents (Elt Ideal))
  (x8 : (⟨S128x64, .f32⟩ : BufTy).Contents (Elt Ideal)) (x9 x10 x11 : (⟨S64, .f32⟩ : BufTy).Contents (Elt Ideal))

/-- The first layer's aggregate: the projected node rows gathered, scaled and added along the edges, plus the bias. -/
def agg1 : (⟨S100000x128, .f32⟩ : BufTy).Contents (Elt Ideal) :=
  aggregate128 (F := Ideal) (Cert.Gcn.matProd (M := 100000) (K := 256) (N := 128) x0 x4) (rowIdx x1) (colIdx x1) (edgeNorm x1 x2) x5

/-- The first layer's output: the aggregate's rows clipped at zero and normalised (count 128). -/
def out1 : (⟨S100000x128, .f32⟩ : BufTy).Contents (Elt Ideal) :=
  Cert.Gcn.reluNorm (M := 100000) (n := 128) (Ideal.ofBits .f32 0x43000000#32) (Ideal.ofBits .f32 0x3727C5AC#32)
    (agg1 x0 x1 x2 x4 x5) (shapeCast S1x128 x6 row128) (shapeCast S1x128 x7 row128)

/-- The second layer's aggregate. -/
def agg2 : (⟨S100000x64, .f32⟩ : BufTy).Contents (Elt Ideal) :=
  aggregate64 (F := Ideal) (Cert.Gcn.matProd (M := 100000) (K := 128) (N := 64) (out1 x0 x1 x2 x4 x5 x6 x7) x8)
    (rowIdx x1) (colIdx x1) (edgeNorm x1 x2) x9

/-- The second layer's output (count 64). -/
def out2 : (⟨S100000x64, .f32⟩ : BufTy).Contents (Elt Ideal) :=
  Cert.Gcn.reluNorm (M := 100000) (n := 64) (Ideal.ofBits .f32 0x42800000#32) (Ideal.ofBits .f32 0x3727C5AC#32)
    (agg2 x0 x1 x2 x4 x5 x6 x7 x8 x9) (shapeCast S1x64 x10 row64) (shapeCast S1x64 x11 row64)

/-- The network's result: the second layer's rows pooled per graph and squashed. -/
def result : (⟨S64x64, .f32⟩ : BufTy).Contents (Elt Ideal) :=
  poolTail (F := Ideal) (out2 x0 x1 x2 x4 x5 x6 x7 x8 x9 x10 x11) x3

end Cert.Gcn.Net

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.ProjectEntry.lean ====
/-
  The two matrix-unit payloads read at one entry.

  Each body loads a block of 5000 rows of the left operand and the whole weight, rounds the left block to the weight's
  format (the identity on the extended reals), re-casts an operand to its own shape (the identity), and multiplies the
  two into a zero accumulator. Entry (p, q) of the result is therefore the textbook sum over the contraction index k of
  left[p, k] · weight[k, q].
-/
import proofs.«113828_j22660247453949_1_alg».proof.Proof.Gen.KernelIdeal.Skeleton
import proofs.«113828_j22660247453949_1_alg».proof.Proof.LibPlainContract
import Idealize.ShloMosaic.Lib.Pipeline.Value

noncomputable section

namespace Cert.Gcn.Project

open Idealize.ShloMosaic Idealize.ShloMosaic.ValueIdx
open Cert.KernelIdeal Cert.KernelIdeal.Gen

/-- The first product, [5000, 256] by [256, 128], at entry (p, q). -/
theorem pay0_apply (x0 : Vec Ideal S5000x256 .f32) (x1 : Vec Ideal S256x128 .bf16) (p : Fin 5000) (q : Fin 128) :
    k0_pay1 (F := Ideal) x0 x1 (ix2 p q) = ∑ k : Fin 256, x0 (ix2 p k) * x1 (ix2 k q) := by
  unfold k0_pay1
  refine (Cert.LibPlainContract.matmul_plain_apply 5000 256 128 none _ _ p q).trans ?_
  rw [shapeCast_self]
  rfl

/-- The second product, [5000, 128] by [128, 64], at entry (p, q). -/
theorem pay2_apply (x0 : Vec Ideal S5000x128 .f32) (x1 : Vec Ideal S128x64 .bf16) (p : Fin 5000) (q : Fin 64) :
    k2_pay1 (F := Ideal) x0 x1 (ix2 p q) = ∑ k : Fin 128, x0 (ix2 p k) * x1 (ix2 k q) := by
  unfold k2_pay1
  refine (Cert.LibPlainContract.matmul_plain_apply 5000 128 64 none _ _ p q).trans ?_
  rw [shapeCast_self, shapeCast_self]
  rfl

end Cert.Gcn.Project

end
-- ==== Proof.Project0.lean ====
/-
  The first projection, region by region: what the twenty grid points of the first matrix-product region write back, and
  the array they leave.

  Point t stages rows 5000·t … 5000·t + 4999 of the left operand and the whole weight, multiplies them, and writes
  the 5000-by-128 result to rows 5000·t … of the output. Entry (p, q) of the staged product depends on row p of the
  staged left block only, which is row 5000·t + p of the whole left operand; so what point t writes is block t of the
  product of the two whole arrays, and the twenty blocks cover all 100000 rows.
-/
import proofs.«113828_j22660247453949_1_alg».proof.Proof.Gen.KernelIdeal.Frame
import proofs.«113828_j22660247453949_1_alg».proof.Proof.ProjectEntry
import proofs.«113828_j22660247453949_1_alg».proof.Proof.Spec
import Idealize.ShloMosaic.Lib.Pipeline.Value

noncomputable section

namespace Cert.Gcn.Project

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, as a constant function. -/
theorem zero_offsets0 : (![0, 0] : Fin 2 → Nat) = fun _ => 0 := funext fun a => by fin_cases a <;> rfl

/-- The block indices at grid point t: the left operand and the output move down the rows with t, the weight stays. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left block at point t is entry (5000·t + p, k) of the left operand. -/
theorem left_block0 (c : Dev nD) (t : Fin cfg0.N) (x : S5000x256.Idx) (i : S100000x256.Idx)
    (h0 : (i 0).val = 5000 * t.val + (x 0).val) (h1 : (i 1).val = (x 1).val) :
    (iblk0 V c 0 t : Vec Ideal S5000x256 .f32) x = (V c main_arg0 : S100000x256.Idx → Elt Ideal .f32) i := by
  obtain ⟨e0, e1, -⟩ := block_indices0 t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 256 + 1 * (x 1).val = (i 1).val; rw [e1, h1]; omega

/-- The weight's one block is the whole weight. -/
theorem weight_block0 (c : Dev nD) (t : Fin cfg0.N) (x : S256x128.Idx) :
    (iblk0 V c 1 t : Vec Ideal S256x128 .bf16) x = (V c main_v35 : S256x128.Idx → Elt Ideal .bf16) x := by
  obtain ⟨-, -, e0, e1, -⟩ := block_indices0 t
  unfold iblk0
  rw [View.read_apply]
  show V c main_v35 _ = V c main_v35 _
  congr 1
  funext a
  apply Fin.ext
  match a with
  | ⟨0, _⟩ => show win0_1.index t 0 * 256 + 1 * (x 0).val = (x 0).val; rw [e0]; omega
  | ⟨1, _⟩ => show win0_1.index t 1 * 128 + 1 * (x 1).val = (x 1).val; rw [e1]; omega

/-- Entry (p, q) of the output's block at point t sits at (5000·t + p, q) of the output array. -/
theorem out_block0 (t : Fin cfg0.N) (p : Fin 5000) (q : Fin 128) (hr : 5000 * t.val + p.val < 100000) :
    (((cfg0.win 2).blk t).view.emb (ix2 p q) : S100000x128.Idx) = ix2 ⟨5000 * t.val + p.val, hr⟩ q := by
  obtain ⟨-, -, -, -, e0, e1⟩ := block_indices0 t
  funext a
  apply Fin.ext
  match a with
  | ⟨0, _⟩ => show win0_2.index t 0 * 5000 + 1 * p.val = 5000 * t.val + p.val; rw [e0]; omega
  | ⟨1, _⟩ => show win0_2.index t 1 * 128 + 1 * q.val = q.val; rw [e1]; omega

/-- What point t writes back is block t of the product of the two whole arrays. -/
theorem flushed0_eq (c : Dev nD) (t : Fin cfg0.N) :
    (dat0 (F := Ideal) V c).flushed 2 t
      = ((cfg0.win 2).blk t).view.read (Elt Ideal)
          (matProd (M := 100000) (K := 256) (N := 128) (V c main_arg0) (V c main_v35)) := by
  show (cfg0.win 2).cut (grid0.coords t) ((dat0 V c).after 2 t) = _
  rw [after0_2]
  unfold out0_2
  rw [View.canon_unit_zero zero_offsets0]
  simp only [View.ld_unit_zero (S := S5000x256) zero_offsets0, View.ld_unit_zero (S := S256x128) zero_offsets0]
  funext j
  obtain ⟨p, q, rfl⟩ : ∃ (p : Fin 5000) (q : Fin 128), j = ix2 p q := ⟨j 0, j 1, eq_ix2 j⟩
  have ht : t.val < 20 := lt_of_lt_of_eq t.isLt N_0
  have hr : 5000 * t.val + p.val < 100000 := by have := p.isLt; omega
  show k0_pay1 (F := Ideal) (iblk0 V c 0 t) (iblk0 V c 1 t) (ix2 p q)
    = matProd (M := 100000) (K := 256) (N := 128) (V c main_arg0) (V c main_v35) (((cfg0.win 2).blk t).view.emb (ix2 p q))
  rw [out_block0 t p q hr, matProd_apply]
  refine (pay0_apply (iblk0 V c 0 t) (iblk0 V c 1 t) p q).trans ?_
  refine Finset.sum_congr rfl fun k _ => ?_
  rw [left_block0 V c t (ix2 p k) (ix2 ⟨5000 * t.val + p.val, hr⟩ k) rfl rfl, weight_block0 V c t (ix2 k q)]

/-- A row of the output is in point t's block iff it is one of the 5000 rows from 5000·t on. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v37).slice (win0_2.rect t)).set ↔ _
  rw [View.set_slice_whole, Rect.mem_set_unit]
  exact Iff.rfl

/-- Every entry of the output is in some point's block: row r is written by point r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e0, e1⟩ := block_indices0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ 0 * 5000 ≤ (i 0).val
      ∧ (i 0).val < win0_2.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, hlt⟩ 1 * 128 ≤ (i 1).val
      ∧ (i 1).val < win0_2.index ⟨(i 0).val / 5000, hlt⟩ 1 * 128 + 128
    rw [e1]; omega

/-- The first projection's output array after its region is the product of the left operand and the weight as the
    region finds them. -/
theorem region0 (c : Dev nD) :
    (dat0 (F := Ideal) V c).arrAt 2 cfg0.N
      = matProd (M := 100000) (K := 256) (N := 128) (V c main_arg0) (V c main_v35) :=
  (dat0 (F := Ideal) V c).arrAt_eq_of_cover 2
    (matProd (M := 100000) (K := 256) (N := 128) (V c main_arg0) (V c main_v35))
    (fun t _ => flushed0_eq V c t) cover0

end Cert.Gcn.Project

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.NormEntry.lean ====
/-
  One entry of a block of rows clipped at zero and normalised.

  The block is an a-by-b array x, with a scale row g and a shift row s (both 1-by-b). The vector program is: clip
  every entry at zero, r = max(x, 0); sum every row of r, keep the sums as an a-by-1 column and divide by the count:
  the column of row means; spread that column over the b columns and subtract: the deviations d; square them, sum
  every row, keep as a column and divide by the count: the column of mean squared deviations; add eps and take the
  reciprocal square root; spread it over the columns and multiply with d; multiply with the scale row and add the
  shift row, each laid down the a rows. Read at entry (p, q), every step only looks at row p of x and at column q
  of g and s, and the result is the entry function of the specification.
-/
import Idealize.ShloMosaic.PureOps.Ideal.Laws
import Idealize.ShloMosaic.Lib.ValueIdx
import Idealize.ShloMosaic.Lib.ValueLayout
import Idealize.ShloMosaic.Lib.Pipeline.Value
import proofs.«113828_j22660247453949_1_alg».proof.Proof.Spec
import proofs.«113828_j22660247453949_1_alg».proof.Proof.LibColumn
import proofs.«113828_j22660247453949_1_alg».proof.Proof.LibKeepdims
import proofs.«113828_j22660247453949_1_alg».proof.Proof.LibLreluRows

noncomputable section

namespace Cert.Gcn.Norm

open Idealize.ShloMosaic Idealize.ShloMosaic.ValueIdx

variable {a b : ℕ}

/-- An array (cast to its own shape) clipped at zero: the maximum with a splat of the zero word. -/
def clip (x : FVec Ideal ⟨2, ![a, b]⟩ .f32) (hc : (⟨2, ![a, b]⟩ : Shape).ShapeCasts ⟨2, ![a, b]⟩) :
    FVec Ideal ⟨2, ![a, b]⟩ .f32 :=
  maximumf (shapeCast ⟨2, ![a, b]⟩ x hc) (broadcast ⟨2, ![a, b]⟩ (Scalar.ofBits (F := Ideal) .f32 0x00000000#32))

/-- Entry (p, k) of the clipped array is the maximum of the entry and the real zero. -/
theorem clip_apply (x : FVec Ideal ⟨2, ![a, b]⟩ .f32) (hc : (⟨2, ![a, b]⟩ : Shape).ShapeCasts ⟨2, ![a, b]⟩)
    (p : Fin a) (k : Fin b) : clip x hc (ix2 p k) = max (x (ix2 p k)) 0 := by
  show max (shapeCast ⟨2, ![a, b]⟩ x hc (ix2 p k)) (Ideal.ofBits .f32 0x00000000#32) = _
  rw [shapeCast_self, Ideal.ofBits_zero_f32]

/-- The sum of every row of an array, from the zero accumulator, kept as an a-by-1 column and divided by a splat of
    the count. -/
def rowMean (r : FVec Ideal ⟨2, ![a, b]⟩ .f32) (cnt : Ideal .f32)
    (hr : Shape.Reduces ⟨2, ![a, b]⟩ [1] ⟨1, ![a]⟩) (hφ : FKind.Formats .f32)
    (hacc : (0x00000000#32 : BitVec 32) = 0x00000000#32)
    (hk : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ r 0x00000000#32 hr hφ hacc) hk)
    (broadcast ⟨2, ![a, 1]⟩ cnt)

/-- Row p of that column is the sum of row p divided by the count. -/
theorem rowMean_apply (r : FVec Ideal ⟨2, ![a, b]⟩ .f32) (cnt : Ideal .f32)
    (hr : Shape.Reduces ⟨2, ![a, b]⟩ [1] ⟨1, ![a]⟩) (hφ : FKind.Formats .f32)
    (hacc : (0x00000000#32 : BitVec 32) = 0x00000000#32)
    (hk : (⟨1, ![a]⟩ : Shape).ShapeCasts ⟨2, ![a, 1]⟩) (p : Fin a) (u : Fin 1) :
    rowMean r cnt hr hφ hacc hk (ix2 p u) = Ideal.div (∑ k : Fin b, r (ix2 p k)) cnt := by
  show Ideal.div (shapeCast ⟨2, ![a, 1]⟩ (multiReduction .add [1] ⟨1, ![a]⟩ r 0x00000000#32 hr hφ hacc) hk (ix2 p u)) cnt = _
  refine congrArg (fun z => Ideal.div z cnt) ?_
  refine (Cert.Lib.Keepdims.shapeCast_a_a1_apply _ hk p u).trans ?_
  exact Cert.LibColumn.laneSum_apply r hr hφ hacc p

/-- The whole vector program on a block of rows x with the scale row g and the shift row s. -/
def normBlock (cnt eps : Ideal .f32) (x : FVec Ideal ⟨2, ![a, b]⟩ .f32) (g s : FVec Ideal ⟨2, ![1, b]⟩ .f32)
    (hc : (⟨2, ![a, b]⟩ : Shape).ShapeCasts ⟨2, ![a, b]⟩)
    (hr : Shape.Reduces ⟨2, ![a, b]⟩ [1] ⟨1, ![a]⟩) (hφ : FKind.Formats .f32)
    (hacc : (0x00000000#32 : BitVec 32) = 0x00000000#32)
    (hk : (⟨1, ![a]⟩ : Shape).ShapeCasts ⟨2, ![a, 1]⟩)
    (hb : (⟨2, ![a, 1]⟩ : Shape).Broadcasts ⟨2, ![a, b]⟩)
    (hc1 : (⟨2, ![1, b]⟩ : Shape).ShapeCasts ⟨2, ![1, b]⟩)
    (hb1 : (⟨2, ![1, b]⟩ : Shape).Broadcasts ⟨2, ![a, b]⟩) : FVec Ideal ⟨2, ![a, b]⟩ .f32 :=
  addf
    (mulf
      (mulf
        (subf (clip x hc) (broadcastTo ⟨2, ![a, b]⟩ (rowMean (clip x hc) cnt hr hφ hacc hk) hb))
        (broadcastTo ⟨2, ![a, b]⟩
          (rsqrt (addf
            (rowMean
              (mulf (subf (clip x hc) (broadcastTo ⟨2, ![a, b]⟩ (rowMean (clip x hc) cnt hr hφ hacc hk) hb))
                (subf (clip x hc) (broadcastTo ⟨2, ![a, b]⟩ (rowMean (clip x hc) cnt hr hφ hacc hk) hb)))
              cnt hr hφ hacc hk)
            (broadcast ⟨2, ![a, 1]⟩ eps))) hb))
      (broadcastTo ⟨2, ![a, b]⟩ (shapeCast ⟨2, ![1, b]⟩ g hc1) hb1))
    (broadcastTo ⟨2, ![a, b]⟩ (shapeCast ⟨2, ![1, b]⟩ s hc1) hb1)

/-- Entry (p, q) of the program's result is the specification's entry function of row p of x and of column q of the
    scale and shift rows. -/
theorem normBlock_apply (cnt eps : Ideal .f32) (x : FVec Ideal ⟨2, ![a, b]⟩ .f32) (g s : FVec Ideal ⟨2, ![1, b]⟩ .f32)
    (hc : (⟨2, ![a, b]⟩ : Shape).ShapeCasts ⟨2, ![a, b]⟩)
    (hr : Shape.Reduces ⟨2, ![a, b]⟩ [1] ⟨1, ![a]⟩) (hφ : FKind.Formats .f32)
    (hacc : (0x00000000#32 : BitVec 32) = 0x00000000#32)
    (hk : (⟨1, ![a]⟩ : Shape).ShapeCasts ⟨2, ![a, 1]⟩)
    (hb : (⟨2, ![a, 1]⟩ : Shape).Broadcasts ⟨2, ![a, b]⟩)
    (hc1 : (⟨2, ![1, b]⟩ : Shape).ShapeCasts ⟨2, ![1, b]⟩)
    (hb1 : (⟨2, ![1, b]⟩ : Shape).Broadcasts ⟨2, ![a, b]⟩) (p : Fin a) (q : Fin b) :
    normBlock cnt eps x g s hc hr hφ hacc hk hb hc1 hb1 (ix2 p q)
      = Cert.Gcn.reluNormEntry cnt eps (fun k => x (ix2 p k)) (g (ix2 (0 : Fin 1) q)) (s (ix2 (0 : Fin 1) q)) q := by
  -- the mean of row p of the clipped array
  have hmu : ∀ u : Fin 1, rowMean (clip x hc) cnt hr hφ hacc hk (ix2 p u)
      = Ideal.div (∑ k : Fin b, max (x (ix2 p k)) 0) cnt := fun u =>
    (rowMean_apply (clip x hc) cnt hr hφ hacc hk p u).trans
      (congrArg (fun z => Ideal.div z cnt) (Finset.sum_congr rfl fun k _ => clip_apply x hc p k))
  -- the deviation at (p, k)
  have hd : ∀ k : Fin b,
      subf (clip x hc) (broadcastTo ⟨2, ![a, b]⟩ (rowMean (clip x hc) cnt hr hφ hacc hk) hb) (ix2 p k)
        = max (x (ix2 p k)) 0 - Ideal.div (∑ k : Fin b, max (x (ix2 p k)) 0) cnt := fun k => by
    show clip x hc (ix2 p k) - broadcastTo ⟨2, ![a, b]⟩ (rowMean (clip x hc) cnt hr hφ hacc hk) hb (ix2 p k) = _
    rw [Cert.Lib.Keepdims.broadcastTo_a1_ab_apply, hmu, clip_apply]
  -- the mean squared deviation of row p
  have hvar : ∀ u : Fin 1,
      rowMean
        (mulf (subf (clip x hc) (broadcastTo ⟨2, ![a, b]⟩ (rowMean (clip x hc) cnt hr hφ hacc hk) hb))
          (subf (clip x hc) (broadcastTo ⟨2, ![a, b]⟩ (rowMean (clip x hc) cnt hr hφ hacc hk) hb)))
        cnt hr hφ hacc hk (ix2 p u)
      = Ideal.div (∑ k : Fin b, (max (x (ix2 p k)) 0 - Ideal.div (∑ k : Fin b, max (x (ix2 p k)) 0) cnt)
          * (max (x (ix2 p k)) 0 - Ideal.div (∑ k : Fin b, max (x (ix2 p k)) 0) cnt)) cnt := fun u =>
    (rowMean_apply _ cnt hr hφ hacc hk p u).trans
      (congrArg (fun z => Ideal.div z cnt) (Finset.sum_congr rfl fun k _ => by
        show subf (clip x hc) _ (ix2 p k) * subf (clip x hc) _ (ix2 p k) = _
        rw [hd k]))
  unfold normBlock Cert.Gcn.reluNormEntry
  show (subf (clip x hc) (broadcastTo ⟨2, ![a, b]⟩ (rowMean (clip x hc) cnt hr hφ hacc hk) hb) (ix2 p q)
        * broadcastTo ⟨2, ![a, b]⟩ _ hb (ix2 p q))
        * broadcastTo ⟨2, ![a, b]⟩ (shapeCast ⟨2, ![1, b]⟩ g hc1) hb1 (ix2 p q)
      + broadcastTo ⟨2, ![a, b]⟩ (shapeCast ⟨2, ![1, b]⟩ s hc1) hb1 (ix2 p q) = _
  rw [hd q, Cert.Lib.Keepdims.broadcastTo_a1_ab_apply, Cert.LibLreluRows.rowDown_apply, Cert.LibLreluRows.rowDown_apply]
  show _ * Ideal.rsqrt (rowMean _ cnt hr hφ hacc hk (ix2 p (0 : Fin 1)) + eps) * _ + _ = _
  rw [hvar]

end Cert.Gcn.Norm

end
-- ==== Proof.Norm1.lean ====
/-
  The clip-and-normalise region at width 128: the array it leaves is every row of its input clipped at zero and
  normalised, with the scale and the shift per column.

  The region runs over twenty points. Point t reads rows 5000·t … 5000·t + 4999 of the input array (its block index is
  (t, 0)) and the whole one-row scale and shift arrays (block index (0, 0)), and writes the vector program's result of
  those blocks back to rows 5000·t … of the output array. An entry of the result depends on its own row of the input
  only, so what point t writes back is block t of the normalised whole array; the twenty blocks cover all 100000 rows
  (row r is in block r / 5000), so the output array ends holding the normalised whole array.
-/
import proofs.«113828_j22660247453949_1_alg».proof.Proof.Gen.KernelIdeal.Frame
import proofs.«113828_j22660247453949_1_alg».proof.Proof.NormEntry
import Idealize.ShloMosaic.Lib.Pipeline.Value

noncomputable section

namespace Cert.Gcn.Norm1

open Idealize.ShloMosaic Idealize.ShloMosaic.TcCoe Idealize.ShloMosaic.ValueIdx
open Idealize.ShloMosaic.Pipeline (Dat)
open Cert.KernelIdeal Cert.KernelIdeal.Gen

/-- The count word (128.0) and the epsilon word, kept as words. -/
abbrev cnt : EReal := Ideal.ofBits .f32 0x43000000#32
abbrev eps : EReal := Ideal.ofBits .f32 0x3727C5AC#32

theorem zeroOff : (![0, 0] : Fin 2 → Nat) = fun _ => 0 := funext fun a => by fin_cases a <;> rfl

/-- The region's payload is the clip-and-normalise vector program on a 5000-by-128 block. -/
theorem pay_eq (x0 : Vec Ideal S5000x128 .f32) (x1 x2 : Vec Ideal S1x128 .f32) :
    k1_pay1 (F := Ideal) x0 x1 x2
      = Cert.Gcn.Norm.normBlock cnt eps x0 x1 x2 shapeCasts_S5000x128_S5000x128 reduces_S5000x128_S5000 (.inl rfl) rfl
          shapeCasts_S5000_S5000x1 broadcasts_S5000x1_S5000x128 shapeCasts_S1x128_S1x128 broadcasts_S1x128_S5000x128 := rfl

/-- The block indices over the grid: the input and the output move with the point along the rows, the scale and the
    shift stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- The input's block at point t is rows 5000·t … 5000·t + 4999 of its array. -/
theorem inBlk_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v53 : S100000x128.Idx → Elt Ideal .f32) k := by
  obtain ⟨e0, e1, -⟩ := idx_facts t
  unfold iblk1
  rw [View.read_apply]
  show V c main_v53 _ = V c main_v53 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The scale's block at every point is its whole one-row array. -/
theorem scaleBlk_apply (c : Dev nD) (t : Fin cfg1.N) (x : S1x128.Idx) :
    (iblk1 V c 1 t : Vec Ideal S1x128 .f32) x = (V c main_v54 : S1x128.Idx → Elt Ideal .f32) x := by
  obtain ⟨-, -, e0, e1, -⟩ := idx_facts t
  unfold iblk1
  rw [View.read_apply]
  show V c main_v54 _ = V c main_v54 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- The shift's block at every point is its whole one-row array. -/
theorem shiftBlk_apply (c : Dev nD) (t : Fin cfg1.N) (x : S1x128.Idx) :
    (iblk1 V c 2 t : Vec Ideal S1x128 .f32) x = (V c main_v55 : S1x128.Idx → Elt Ideal .f32) x := by
  obtain ⟨-, -, -, -, e0, e1, -⟩ := idx_facts t
  unfold iblk1
  rw [View.read_apply]
  show V c main_v55 _ = V c main_v55 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- The whole array the region leaves: every row of the input clipped and normalised. -/
abbrev result (c : Dev nD) : S100000x128.Idx → EReal :=
  Cert.Gcn.reluNorm (M := 100000) (n := 128) cnt eps
    (V c main_v53 : S100000x128.Idx → Elt Ideal .f32) (V c main_v54 : S1x128.Idx → Elt Ideal .f32)
    (V c main_v55 : S1x128.Idx → Elt Ideal .f32)

/-- The payload of point t's blocks at entry (p, q) is entry (5000·t + p, q) of the normalised whole array. -/
theorem pay_entry (c : Dev nD) (t : Fin cfg1.N) (p : Fin 5000) (q : Fin 128) (P : Fin 100000)
    (hP : P.val = 5000 * t.val + p.val) :
    k1_pay1 (F := Ideal) (iblk1 V c 0 t) (iblk1 V c 1 t) (iblk1 V c 2 t) (ix2 p q) = result V c (ix2 P q) := by
  rw [pay_eq]
  refine (Cert.Gcn.Norm.normBlock_apply cnt eps _ _ _ _ _ _ _ _ _ _ _ p q).trans ?_
  refine Eq.trans ?_ (Cert.Gcn.reluNorm_apply cnt eps _ _ _ P q).symm
  have h0 : (fun k : Fin 128 => (iblk1 V c 0 t : Vec Ideal S5000x128 .f32) (ix2 p k))
      = fun k : Fin 128 => (V c main_v53 : S100000x128.Idx → Elt Ideal .f32) (ix2 P k) :=
    funext fun k => inBlk_apply V c t (ix2 p k) (ix2 P k) hP rfl
  rw [h0, scaleBlk_apply V c t (ix2 (0 : Fin 1) q), shiftBlk_apply V c t (ix2 (0 : Fin 1) q)]

/-- What point t writes back is block t of the normalised whole array. -/
theorem flushed_eq (c : Dev nD) (t : Fin cfg1.N) :
    (dat1 (F := Ideal) V c).flushed 3 t = ((cfg1.win 3).blk t).view.read (Elt Ideal) (result V c) := by
  show (cfg1.win 3).cut (grid1.coords t) ((dat1 (F := Ideal) V c).after 3 t) = _
  rw [after1_3]
  unfold out1_3
  rw [View.canon_unit_zero zeroOff]
  simp only [View.ld_unit_zero (S := S5000x128) zeroOff, View.ld_unit_zero (S := S1x128) zeroOff]
  obtain ⟨-, -, -, -, -, -, e0, e1⟩ := idx_facts t
  funext j
  obtain ⟨p, q, rfl⟩ : ∃ (p : Fin 5000) (q : Fin 128), j = ix2 p q := ⟨j 0, j 1, eq_ix2 j⟩
  have hlt : 5000 * t.val + p.val < 100000 := by
    have ht : t.val < 20 := t.isLt
    have hp : p.val < 5000 := p.isLt
    omega
  show k1_pay1 (F := Ideal) (iblk1 V c 0 t) (iblk1 V c 1 t) (iblk1 V c 2 t) (ix2 p q)
      = result V c (((cfg1.win 3).blk t).view.emb (ix2 p q))
  have hemb : ((cfg1.win 3).blk t).view.emb (ix2 p q) = (ix2 (⟨5000 * t.val + p.val, hlt⟩ : Fin 100000) q : S100000x128.Idx) := by
    funext a
    apply Fin.ext
    match a with
    | ⟨0, _⟩ => show win1_3.index t 0 * 5000 + 1 * p.val = 5000 * t.val + p.val; rw [e0]; omega
    | ⟨1, _⟩ => show win1_3.index t 1 * 128 + 1 * q.val = q.val; rw [e1]; omega
  rw [hemb]
  exact pay_entry V c t p q ⟨5000 * t.val + p.val, hlt⟩ rfl

/-- Every row of the output array is in the block of the point row / 5000. -/
theorem cover (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  have hN : cfg1.N = 20 := N_1
  let t : Fin cfg1.N := ⟨(i 0).val / 5000, by rw [hN]; omega⟩
  obtain ⟨-, -, -, -, -, -, e0, e1⟩ := idx_facts t
  have e0' : win1_3.index t (0 : Fin 2) = (i 0).val / 5000 := e0
  refine ⟨t, flush1_3 t, ?_⟩
  show i ∈ ((View.whole main_v56).slice (win1_3.rect t)).set
  rw [View.set_slice_whole, Rect.mem_set_unit]
  intro a
  match a with
  | ⟨0, _⟩ => show win1_3.index t 0 * 5000 ≤ (i 0).val ∧ (i 0).val < win1_3.index t 0 * 5000 + 5000; rw [e0']; omega
  | ⟨1, _⟩ => show win1_3.index t 1 * 128 ≤ (i 1).val ∧ (i 1).val < win1_3.index t 1 * 128 + 128; rw [e1]; omega

end

end Cert.Gcn.Norm1

namespace Cert.Gcn.Norm

open Idealize.ShloMosaic Idealize.ShloMosaic.TcCoe

/-- The output array of the region ends holding every row of the input clipped at zero and normalised. -/
theorem region1
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD) :
    (Cert.KernelIdeal.Gen.dat1 (F := Ideal) V c).arrAt 3 Cert.KernelIdeal.cfg1.N
      = Cert.Gcn.reluNorm (M := 100000) (n := 128) (Ideal.ofBits .f32 0x43000000#32) (Ideal.ofBits .f32 0x3727C5AC#32)
          (V c Cert.KernelIdeal.main_v53) (V c Cert.KernelIdeal.main_v54) (V c Cert.KernelIdeal.main_v55) :=
  (Cert.KernelIdeal.Gen.dat1 (F := Ideal) V c).arrAt_eq_of_cover 3 (Cert.Gcn.Norm1.result V c)
    (fun t _ => Cert.Gcn.Norm1.flushed_eq V c t) (Cert.Gcn.Norm1.cover)

end Cert.Gcn.Norm

end
-- ==== Proof.KernelLayer1.lean ====
/-
  The first layer of the kernel's program.

  After the first projection its output array holds the matrix product of the node features with the first weight
  matrix. The host operations that follow gather, scale and add the projected rows along the edges and add the bias:
  the first aggregate; they also lay the layer's scale and shift vectors out as one-row arrays. The normalisation
  launch then leaves, in its output array, the aggregate's rows clipped at zero and normalised: the first layer's
  output of the network function.
-/
import proofs.«113828_j22660247453949_1_alg».proof.Proof.KernelEdges
import proofs.«113828_j22660247453949_1_alg».proof.Proof.Net
import proofs.«113828_j22660247453949_1_alg».proof.Proof.Project0
import proofs.«113828_j22660247453949_1_alg».proof.Proof.Norm1

noncomputable section

namespace Cert.Gcn.KernelLayer1

open Cert.KernelIdeal Cert.KernelIdeal.Gen Idealize.ShloMosaic Idealize.ShloMosaic.TcCoe Idealize.SL.Sem
open Idealize.ShloMosaic.StableHlo Cert.Gcn.KernelKeep Cert.Gcn.Stages

variable (m : (ℓ : Loc nD τ sig) → Buf (Elt Ideal) ℓ) (ρ : Dev nD → PrngReg) (c : Dev nD)

/-- The first projection's output: the node features times the first weight matrix. -/
theorem proj : W4 m ρ c (Proc.devRef .tc main_v37)
    = Cert.Gcn.matProd (M := 100000) (K := 256) (N := 128) (m ((c : Thread nD τ).loc main_arg0)) (m ((c : Thread nD τ).loc main_arg4)) := by
  refine (W4_arr m ρ c 2).trans ((Cert.Gcn.Project.region0 (V3 m ρ) c).trans ?_)
  show Cert.Gcn.matProd (M := 100000) (K := 256) (N := 128) (W3 m ρ c (Proc.devRef .tc main_arg0)) (W3 m ρ c (Proc.devRef .tc main_v35)) = _
  rw [KernelEdges.arg0, KernelEdges.weight1]

/-! ## What the projection leaves alone -/

theorem row : W4 m ρ c (Proc.devRef .tc main_v3) = rowIdx (F := Ideal) (m ((c : Thread nD τ).loc main_arg1)) :=
  (across0 m ρ c main_v3 (by decide)).trans (KernelEdges.row m ρ c)
theorem col : W4 m ρ c (Proc.devRef .tc main_v7) = colIdx (F := Ideal) (m ((c : Thread nD τ).loc main_arg1)) :=
  (across0 m ρ c main_v7 (by decide)).trans (KernelEdges.col m ρ c)
theorem nrm : W4 m ρ c (Proc.devRef .tc main_v34) = edgeNorm (F := Ideal) (m ((c : Thread nD τ).loc main_arg1)) (m ((c : Thread nD τ).loc main_arg2)) :=
  (across0 m ρ c main_v34 (by decide)).trans (KernelEdges.nrm m ρ c)
theorem arg5 : W4 m ρ c (Proc.devRef .tc main_arg5) = m ((c : Thread nD τ).loc main_arg5) :=
  (across0 m ρ c main_arg5 (by decide)).trans (KernelEdges.arg5 m ρ c)
theorem arg6 : W4 m ρ c (Proc.devRef .tc main_arg6) = m ((c : Thread nD τ).loc main_arg6) :=
  (across0 m ρ c main_arg6 (by decide)).trans (KernelEdges.arg6 m ρ c)
theorem arg7 : W4 m ρ c (Proc.devRef .tc main_arg7) = m ((c : Thread nD τ).loc main_arg7) :=
  (across0 m ρ c main_arg7 (by decide)).trans (KernelEdges.arg7 m ρ c)

/-! ## The host operations between the projection and the normalisation -/

/-- The first aggregate. -/
theorem agg : W5 m ρ c (Proc.devRef .tc main_v53) = Net.agg1 (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1 (W4 m ρ c) (Proc.devRef .tc main_v53) = _
  after_results_simp
  rw [proj, row, col, nrm, arg5]
  rfl

/-- The scale vector as a one-row array. -/
theorem scale : W5 m ρ c (Proc.devRef .tc main_v54) = shapeCast S1x128 (m ((c : Thread nD τ).loc main_arg6)) shapeCasts_S128_S1x128 := by
  show StableHlo.after hostOps1 (W4 m ρ c) (Proc.devRef .tc main_v54) = _
  after_results_simp
  rw [arg6]
  rfl

/-- The shift vector as a one-row array. -/
theorem shift : W5 m ρ c (Proc.devRef .tc main_v55) = shapeCast S1x128 (m ((c : Thread nD τ).loc main_arg7)) shapeCasts_S128_S1x128 := by
  show StableHlo.after hostOps1 (W4 m ρ c) (Proc.devRef .tc main_v55) = _
  after_results_simp
  rw [arg7]
  rfl

/-- The first layer's output: the aggregate's rows clipped at zero and normalised. -/
theorem out : W6 m ρ c (Proc.devRef .tc main_v56)
    = Net.out1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W6_arr m ρ c 3).trans ((Cert.Gcn.Norm.region1 (V5 m ρ) c).trans ?_)
  show Cert.Gcn.reluNorm (M := 100000) (n := 128) (Ideal.ofBits .f32 0x43000000#32) (Ideal.ofBits .f32 0x3727C5AC#32)
      (W5 m ρ c (Proc.devRef .tc main_v53)) (W5 m ρ c (Proc.devRef .tc main_v54)) (W5 m ρ c (Proc.devRef .tc main_v55)) = _
  rw [agg, scale, shift]
  rfl

end Cert.Gcn.KernelLayer1

end
-- ==== Proof.Project2.lean ====
/-
  The second projection: what the twenty grid points of the second matrix-product region write back, and the array they
  leave.

  Point t stages rows 5000·t … 5000·t + 4999 of the 100000-by-128 left operand and the whole 128-by-64 weight,
  multiplies them, and writes the 5000-by-64 result to rows 5000·t … of the output. Entry (p, q) of the staged product
  depends on row p of the staged left block only, which is row 5000·t + p of the whole left operand; so what point t
  writes is block t of the product of the two whole arrays, and the twenty blocks cover all 100000 rows.
-/
import proofs.«113828_j22660247453949_1_alg».proof.Proof.Gen.KernelIdeal.Frame
import proofs.«113828_j22660247453949_1_alg».proof.Proof.ProjectEntry
import proofs.«113828_j22660247453949_1_alg».proof.Proof.Spec
import Idealize.ShloMosaic.Lib.Pipeline.Value

noncomputable section

namespace Cert.Gcn.Project

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, as a constant function. -/
theorem zero_offsets2 : (![0, 0] : Fin 2 → Nat) = fun _ => 0 := funext fun a => by fin_cases a <;> rfl

/-- The block indices at grid point t: the left operand and the output move down the rows with t, the weight stays. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the left block at point t is entry (5000·t + p, k) of the left operand. -/
theorem left_block2 (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c main_v56 : S100000x128.Idx → Elt Ideal .f32) i := by
  obtain ⟨e0, e1, -⟩ := block_indices2 t
  unfold iblk2
  rw [View.read_apply]
  show V c main_v56 _ = V c main_v56 _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- The weight's one block is the whole weight. -/
theorem weight_block2 (c : Dev nD) (t : Fin cfg2.N) (x : S128x64.Idx) :
    (iblk2 V c 1 t : Vec Ideal S128x64 .bf16) x = (V c main_v36 : S128x64.Idx → Elt Ideal .bf16) x := by
  obtain ⟨-, -, e0, e1, -⟩ := block_indices2 t
  unfold iblk2
  rw [View.read_apply]
  show V c main_v36 _ = V c main_v36 _
  congr 1
  funext a
  apply Fin.ext
  match a with
  | ⟨0, _⟩ => show win2_1.index t 0 * 128 + 1 * (x 0).val = (x 0).val; rw [e0]; omega
  | ⟨1, _⟩ => show win2_1.index t 1 * 64 + 1 * (x 1).val = (x 1).val; rw [e1]; omega

/-- Entry (p, q) of the output's block at point t sits at (5000·t + p, q) of the output array. -/
theorem out_block2 (t : Fin cfg2.N) (p : Fin 5000) (q : Fin 64) (hr : 5000 * t.val + p.val < 100000) :
    (((cfg2.win 2).blk t).view.emb (ix2 p q) : S100000x64.Idx) = ix2 ⟨5000 * t.val + p.val, hr⟩ q := by
  obtain ⟨-, -, -, -, e0, e1⟩ := block_indices2 t
  funext a
  apply Fin.ext
  match a with
  | ⟨0, _⟩ => show win2_2.index t 0 * 5000 + 1 * p.val = 5000 * t.val + p.val; rw [e0]; omega
  | ⟨1, _⟩ => show win2_2.index t 1 * 64 + 1 * q.val = q.val; rw [e1]; omega

/-- What point t writes back is block t of the product of the two whole arrays. -/
theorem flushed2_eq (c : Dev nD) (t : Fin cfg2.N) :
    (dat2 (F := Ideal) V c).flushed 2 t
      = ((cfg2.win 2).blk t).view.read (Elt Ideal)
          (matProd (M := 100000) (K := 128) (N := 64) (V c main_v56) (V c main_v36)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x64) zero_offsets2]
  funext j
  obtain ⟨p, q, rfl⟩ : ∃ (p : Fin 5000) (q : Fin 64), j = ix2 p q := ⟨j 0, j 1, eq_ix2 j⟩
  have ht : t.val < 20 := lt_of_lt_of_eq t.isLt N_2
  have hr : 5000 * t.val + p.val < 100000 := by have := p.isLt; omega
  show k2_pay1 (F := Ideal) (iblk2 V c 0 t) (iblk2 V c 1 t) (ix2 p q)
    = matProd (M := 100000) (K := 128) (N := 64) (V c main_v56) (V c main_v36) (((cfg2.win 2).blk t).view.emb (ix2 p q))
  rw [out_block2 t p q hr, matProd_apply]
  refine (pay2_apply (iblk2 V c 0 t) (iblk2 V c 1 t) p q).trans ?_
  refine Finset.sum_congr rfl fun k _ => ?_
  rw [left_block2 V c t (ix2 p k) (ix2 ⟨5000 * t.val + p.val, hr⟩ k) rfl rfl, weight_block2 V c t (ix2 k q)]

/-- A row of the output is in point t's block iff it is one of the 5000 rows from 5000·t on. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v57).slice (win2_2.rect t)).set ↔ _
  rw [View.set_slice_whole, Rect.mem_set_unit]
  exact Iff.rfl

/-- Every entry of the output is in some point's block: row r is written by point r / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have hlt : (i 0).val / 5000 < cfg2.N := by rw [hN]; omega
  obtain ⟨-, -, -, -, e0, e1⟩ := block_indices2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ 0 * 5000 ≤ (i 0).val
      ∧ (i 0).val < win2_2.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win2_2.index ⟨(i 0).val / 5000, hlt⟩ 1 * 64 ≤ (i 1).val
      ∧ (i 1).val < win2_2.index ⟨(i 0).val / 5000, hlt⟩ 1 * 64 + 64
    rw [e1]; omega

/-- The second projection's output array after its region is the product of the left operand and the weight as the
    region finds them. -/
theorem region2 (c : Dev nD) :
    (dat2 (F := Ideal) V c).arrAt 2 cfg2.N
      = matProd (M := 100000) (K := 128) (N := 64) (V c main_v56) (V c main_v36) :=
  (dat2 (F := Ideal) V c).arrAt_eq_of_cover 2
    (matProd (M := 100000) (K := 128) (N := 64) (V c main_v56) (V c main_v36))
    (fun t _ => flushed2_eq V c t) cover2

end Cert.Gcn.Project

end
-- ==== Proof.Norm3.lean ====
/-
  The clip-and-normalise region at width 64: the array it leaves is every row of its input clipped at zero and
  normalised, with the scale and the shift per column.

  The region runs over twenty points. Point t reads rows 5000·t … 5000·t + 4999 of the input array (its block index is
  (t, 0)) and the whole one-row scale and shift arrays (block index (0, 0)), and writes the vector program's result of
  those blocks back to rows 5000·t … of the output array. An entry of the result depends on its own row of the input
  only, so what point t writes back is block t of the normalised whole array; the twenty blocks cover all 100000 rows
  (row r is in block r / 5000), so the output array ends holding the normalised whole array.
-/
import proofs.«113828_j22660247453949_1_alg».proof.Proof.Gen.KernelIdeal.Frame
import proofs.«113828_j22660247453949_1_alg».proof.Proof.NormEntry
import Idealize.ShloMosaic.Lib.Pipeline.Value

noncomputable section

namespace Cert.Gcn.Norm3

open Idealize.ShloMosaic Idealize.ShloMosaic.TcCoe Idealize.ShloMosaic.ValueIdx
open Idealize.ShloMosaic.Pipeline (Dat)
open Cert.KernelIdeal Cert.KernelIdeal.Gen

/-- The count word (64.0) and the epsilon word, kept as words. -/
abbrev cnt : EReal := Ideal.ofBits .f32 0x42800000#32
abbrev eps : EReal := Ideal.ofBits .f32 0x3727C5AC#32

theorem zeroOff : (![0, 0] : Fin 2 → Nat) = fun _ => 0 := funext fun a => by fin_cases a <;> rfl

/-- The region's payload is the clip-and-normalise vector program on a 5000-by-64 block. -/
theorem pay_eq (x0 : Vec Ideal S5000x64 .f32) (x1 x2 : Vec Ideal S1x64 .f32) :
    k3_pay1 (F := Ideal) x0 x1 x2
      = Cert.Gcn.Norm.normBlock cnt eps x0 x1 x2 shapeCasts_S5000x64_S5000x64 reduces_S5000x64_S5000 (.inl rfl) rfl
          shapeCasts_S5000_S5000x1 broadcasts_S5000x1_S5000x64 shapeCasts_S1x64_S1x64 broadcasts_S1x64_S5000x64 := rfl

/-- The block indices over the grid: the input and the output move with the point along the rows, the scale and the
    shift stay at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b))

/-- The input's block at point t is rows 5000·t … 5000·t + 4999 of its array. -/
theorem inBlk_apply (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = (V c main_v73 : S100000x64.Idx → Elt Ideal .f32) k := by
  obtain ⟨e0, e1, -⟩ := idx_facts t
  unfold iblk3
  rw [View.read_apply]
  show V c main_v73 _ = V c main_v73 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The scale's block at every point is its whole one-row array. -/
theorem scaleBlk_apply (c : Dev nD) (t : Fin cfg3.N) (x : S1x64.Idx) :
    (iblk3 V c 1 t : Vec Ideal S1x64 .f32) x = (V c main_v74 : S1x64.Idx → Elt Ideal .f32) x := by
  obtain ⟨-, -, e0, e1, -⟩ := idx_facts t
  unfold iblk3
  rw [View.read_apply]
  show V c main_v74 _ = V c main_v74 _
  congr 1
  funext a
  apply Fin.ext
  match a with
  | ⟨0, _⟩ => show win3_1.index t 0 * 1 + 1 * (x 0).val = (x 0).val; rw [e0]; omega
  | ⟨1, _⟩ => show win3_1.index t 1 * 64 + 1 * (x 1).val = (x 1).val; rw [e1]; omega

/-- The shift's block at every point is its whole one-row array. -/
theorem shiftBlk_apply (c : Dev nD) (t : Fin cfg3.N) (x : S1x64.Idx) :
    (iblk3 V c 2 t : Vec Ideal S1x64 .f32) x = (V c main_v75 : S1x64.Idx → Elt Ideal .f32) x := by
  obtain ⟨-, -, -, -, e0, e1, -⟩ := idx_facts t
  unfold iblk3
  rw [View.read_apply]
  show V c main_v75 _ = V c main_v75 _
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The whole array the region leaves: every row of the input clipped and normalised. -/
abbrev result (c : Dev nD) : S100000x64.Idx → EReal :=
  Cert.Gcn.reluNorm (M := 100000) (n := 64) cnt eps
    (V c main_v73 : S100000x64.Idx → Elt Ideal .f32) (V c main_v74 : S1x64.Idx → Elt Ideal .f32)
    (V c main_v75 : S1x64.Idx → Elt Ideal .f32)

/-- The payload of point t's blocks at entry (p, q) is entry (5000·t + p, q) of the normalised whole array. -/
theorem pay_entry (c : Dev nD) (t : Fin cfg3.N) (p : Fin 5000) (q : Fin 64) (P : Fin 100000)
    (hP : P.val = 5000 * t.val + p.val) :
    k3_pay1 (F := Ideal) (iblk3 V c 0 t) (iblk3 V c 1 t) (iblk3 V c 2 t) (ix2 p q) = result V c (ix2 P q) := by
  rw [pay_eq]
  refine (Cert.Gcn.Norm.normBlock_apply cnt eps _ _ _ _ _ _ _ _ _ _ _ p q).trans ?_
  refine Eq.trans ?_ (Cert.Gcn.reluNorm_apply cnt eps _ _ _ P q).symm
  have h0 : (fun k : Fin 64 => (iblk3 V c 0 t : Vec Ideal S5000x64 .f32) (ix2 p k))
      = fun k : Fin 64 => (V c main_v73 : S100000x64.Idx → Elt Ideal .f32) (ix2 P k) :=
    funext fun k => inBlk_apply V c t (ix2 p k) (ix2 P k) hP rfl
  rw [h0, scaleBlk_apply V c t (ix2 (0 : Fin 1) q), shiftBlk_apply V c t (ix2 (0 : Fin 1) q)]

/-- What point t writes back is block t of the normalised whole array. -/
theorem flushed_eq (c : Dev nD) (t : Fin cfg3.N) :
    (dat3 (F := Ideal) V c).flushed 3 t = ((cfg3.win 3).blk t).view.read (Elt Ideal) (result V c) := by
  show (cfg3.win 3).cut (grid3.coords t) ((dat3 (F := Ideal) V c).after 3 t) = _
  rw [after3_3]
  unfold out3_3
  rw [View.canon_unit_zero zeroOff]
  simp only [View.ld_unit_zero (S := S5000x64) zeroOff, View.ld_unit_zero (S := S1x64) zeroOff]
  obtain ⟨-, -, -, -, -, -, e0, e1⟩ := idx_facts t
  funext j
  obtain ⟨p, q, rfl⟩ : ∃ (p : Fin 5000) (q : Fin 64), j = ix2 p q := ⟨j 0, j 1, eq_ix2 j⟩
  have hlt : 5000 * t.val + p.val < 100000 := by
    have ht : t.val < 20 := t.isLt
    have hp : p.val < 5000 := p.isLt
    omega
  show k3_pay1 (F := Ideal) (iblk3 V c 0 t) (iblk3 V c 1 t) (iblk3 V c 2 t) (ix2 p q)
      = result V c (((cfg3.win 3).blk t).view.emb (ix2 p q))
  have hemb : ((cfg3.win 3).blk t).view.emb (ix2 p q) = (ix2 (⟨5000 * t.val + p.val, hlt⟩ : Fin 100000) q : S100000x64.Idx) := by
    funext a
    apply Fin.ext
    match a with
    | ⟨0, _⟩ => show win3_3.index t 0 * 5000 + 1 * p.val = 5000 * t.val + p.val; rw [e0]; omega
    | ⟨1, _⟩ => show win3_3.index t 1 * 64 + 1 * q.val = q.val; rw [e1]; omega
  rw [hemb]
  exact pay_entry V c t p q ⟨5000 * t.val + p.val, hlt⟩ rfl

/-- Every row of the output array is in the block of the point row / 5000. -/
theorem cover (i : S100000x64.Idx) :
    ∃ t : Fin cfg3.N, (cfg3.win 3).flush t = true ∧ i ∈ ((cfg3.win 3).blk t).view.set := by
  have h0 : (i 0).val < 100000 := (i 0).isLt
  have h1 : (i 1).val < 64 := (i 1).isLt
  have hN : cfg3.N = 20 := N_3
  let t : Fin cfg3.N := ⟨(i 0).val / 5000, by rw [hN]; omega⟩
  obtain ⟨-, -, -, -, -, -, e0, e1⟩ := idx_facts t
  have e0' : win3_3.index t (0 : Fin 2) = (i 0).val / 5000 := e0
  refine ⟨t, flush3_3 t, ?_⟩
  show i ∈ ((View.whole main_v76).slice (win3_3.rect t)).set
  rw [View.set_slice_whole, Rect.mem_set_unit]
  intro a
  match a with
  | ⟨0, _⟩ => show win3_3.index t 0 * 5000 ≤ (i 0).val ∧ (i 0).val < win3_3.index t 0 * 5000 + 5000; rw [e0']; omega
  | ⟨1, _⟩ => show win3_3.index t 1 * 64 ≤ (i 1).val ∧ (i 1).val < win3_3.index t 1 * 64 + 64; rw [e1]; omega

end

end Cert.Gcn.Norm3

namespace Cert.Gcn.Norm

open Idealize.ShloMosaic Idealize.ShloMosaic.TcCoe

/-- The output array of the region ends holding every row of the input clipped at zero and normalised. -/
theorem region3
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD) :
    (Cert.KernelIdeal.Gen.dat3 (F := Ideal) V c).arrAt 3 Cert.KernelIdeal.cfg3.N
      = Cert.Gcn.reluNorm (M := 100000) (n := 64) (Ideal.ofBits .f32 0x42800000#32) (Ideal.ofBits .f32 0x3727C5AC#32)
          (V c Cert.KernelIdeal.main_v73) (V c Cert.KernelIdeal.main_v74) (V c Cert.KernelIdeal.main_v75) :=
  (Cert.KernelIdeal.Gen.dat3 (F := Ideal) V c).arrAt_eq_of_cover 3 (Cert.Gcn.Norm3.result V c)
    (fun t _ => Cert.Gcn.Norm3.flushed_eq V c t) (Cert.Gcn.Norm3.cover)

end Cert.Gcn.Norm

end
-- ==== Proof.KernelLayer2.lean ====
/-
  The second layer of the kernel's program, and its result.

  The second projection multiplies the first layer's output by the second weight matrix. The host operations after it
  aggregate the projected rows along the same edges, with the indices and the normalisation computed before the first
  launch and untouched since, and lay out the layer's scale and shift. The second normalisation leaves the second
  layer's output, and the pooling tail pools and squashes it: the network function of the twelve arguments.
-/
import proofs.«113828_j22660247453949_1_alg».proof.Proof.KernelLayer1
import proofs.«113828_j22660247453949_1_alg».proof.Proof.Project2
import proofs.«113828_j22660247453949_1_alg».proof.Proof.Norm3

noncomputable section

namespace Cert.Gcn.KernelLayer2

open Cert.KernelIdeal Cert.KernelIdeal.Gen Idealize.ShloMosaic Idealize.ShloMosaic.TcCoe Idealize.SL.Sem
open Idealize.ShloMosaic.StableHlo Cert.Gcn.KernelKeep Cert.Gcn.Stages

variable (m : (ℓ : Loc nD τ sig) → Buf (Elt Ideal) ℓ) (ρ : Dev nD → PrngReg) (c : Dev nD)

/-- A buffer that is none of the first three launches' arrays and that the first aggregation's host operations do not
    write holds, when the second aggregation starts, what it held when the first projection was entered. -/
theorem carried (b : Ref sig .tc) (h0 : ∀ w, Pipeline.arrRef spec0 w ≠ b) (h1 : ∀ w, Pipeline.arrRef spec1 w ≠ b)
    (h2 : ∀ w, Pipeline.arrRef spec2 w ≠ b)
    (hh : ∀ op ∈ (hostOps1 : List (HloOp τ sig (Elt Ideal))), Proc.devRef .tc b ∉ op.writes) :
    W7 m ρ c (Proc.devRef .tc b) = W3 m ρ c (Proc.devRef .tc b) :=
  (across2 m ρ c b h2).trans ((across1 m ρ c b h1).trans ((across_host1 m ρ c b hh).trans (across0 m ρ c b h0)))

/-- The second weight matrix at the second projection's entry. -/
theorem weight : W6 m ρ c (Proc.devRef .tc main_v36) = ((m ((c : Thread nD τ).loc main_arg8)) : S128x64.Idx → EReal) :=
  (across1 m ρ c main_v36 (by decide)).trans ((across_host1 m ρ c main_v36 (by not_written hostOps1)).trans
    ((across0 m ρ c main_v36 (by decide)).trans (KernelEdges.weight2 m ρ c)))

/-- The second projection's output: the first layer's output times the second weight matrix. -/
theorem proj : W7 m ρ c (Proc.devRef .tc main_v57)
    = Cert.Gcn.matProd (M := 100000) (K := 128) (N := 64) (Net.out1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg8)) := by
  refine (W7_arr m ρ c 2).trans ((Cert.Gcn.Project.region2 (V6 m ρ) c).trans ?_)
  show Cert.Gcn.matProd (M := 100000) (K := 128) (N := 64) (W6 m ρ c (Proc.devRef .tc main_v56)) (W6 m ρ c (Proc.devRef .tc main_v36)) = _
  rw [KernelLayer1.out, weight]

/-! ## What the second aggregation reads from before the first launch -/

theorem row : W7 m ρ c (Proc.devRef .tc main_v3) = rowIdx (F := Ideal) (m ((c : Thread nD τ).loc main_arg1)) :=
  (carried m ρ c main_v3 (by decide) (by decide) (by decide) (by not_written hostOps1)).trans (KernelEdges.row m ρ c)
theorem col : W7 m ρ c (Proc.devRef .tc main_v7) = colIdx (F := Ideal) (m ((c : Thread nD τ).loc main_arg1)) :=
  (carried m ρ c main_v7 (by decide) (by decide) (by decide) (by not_written hostOps1)).trans (KernelEdges.col m ρ c)
theorem nrm : W7 m ρ c (Proc.devRef .tc main_v34) = edgeNorm (F := Ideal) (m ((c : Thread nD τ).loc main_arg1)) (m ((c : Thread nD τ).loc main_arg2)) :=
  (carried m ρ c main_v34 (by decide) (by decide) (by decide) (by not_written hostOps1)).trans (KernelEdges.nrm m ρ c)
theorem arg9 : W7 m ρ c (Proc.devRef .tc main_arg9) = (m ((c : Thread nD τ).loc main_arg9)) :=
  (carried m ρ c main_arg9 (by decide) (by decide) (by decide) (by not_written hostOps1)).trans (KernelEdges.arg9 m ρ c)
theorem arg10 : W7 m ρ c (Proc.devRef .tc main_arg10) = (m ((c : Thread nD τ).loc main_arg10)) :=
  (carried m ρ c main_arg10 (by decide) (by decide) (by decide) (by not_written hostOps1)).trans (KernelEdges.arg10 m ρ c)
theorem arg11 : W7 m ρ c (Proc.devRef .tc main_arg11) = (m ((c : Thread nD τ).loc main_arg11)) :=
  (carried m ρ c main_arg11 (by decide) (by decide) (by decide) (by not_written hostOps1)).trans (KernelEdges.arg11 m ρ c)

/-! ## The host operations between the second projection and the second normalisation -/

/-- The second aggregate. -/
theorem agg : W8 m ρ c (Proc.devRef .tc main_v73) = Net.agg2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W7 m ρ c) (Proc.devRef .tc main_v73) = _
  after_results_simp
  rw [proj, row, col, nrm, arg9]
  rfl

/-- The scale vector as a one-row array. -/
theorem scale : W8 m ρ c (Proc.devRef .tc main_v74) = shapeCast S1x64 (m ((c : Thread nD τ).loc main_arg10)) shapeCasts_S64_S1x64 := by
  show StableHlo.after hostOps3 (W7 m ρ c) (Proc.devRef .tc main_v74) = _
  after_results_simp
  rw [arg10]
  rfl

/-- The shift vector as a one-row array. -/
theorem shift : W8 m ρ c (Proc.devRef .tc main_v75) = shapeCast S1x64 (m ((c : Thread nD τ).loc main_arg11)) shapeCasts_S64_S1x64 := by
  show StableHlo.after hostOps3 (W7 m ρ c) (Proc.devRef .tc main_v75) = _
  after_results_simp
  rw [arg11]
  rfl

/-- The second layer's output: the second aggregate's rows clipped at zero and normalised. -/
theorem out : W9 m ρ c (Proc.devRef .tc main_v76)
    = Net.out2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W9_arr m ρ c 3).trans ((Cert.Gcn.Norm.region3 (V8 m ρ) c).trans ?_)
  show Cert.Gcn.reluNorm (M := 100000) (n := 64) (Ideal.ofBits .f32 0x42800000#32) (Ideal.ofBits .f32 0x3727C5AC#32)
      (W8 m ρ c (Proc.devRef .tc main_v73)) (W8 m ρ c (Proc.devRef .tc main_v74)) (W8 m ρ c (Proc.devRef .tc main_v75)) = _
  rw [agg, scale, shift]
  rfl

/-! ## The pooling tail -/

/-- The graph index of every node, as launched, when the tail starts. -/
theorem batch : W9 m ρ c (Proc.devRef .tc main_arg3) = (m ((c : Thread nD τ).loc main_arg3)) :=
  (across3 m ρ c main_arg3 (by decide)).trans ((across_host3 m ρ c main_arg3 (by not_written hostOps3)).trans
    ((carried m ρ c main_arg3 (by decide) (by decide) (by decide) (by not_written hostOps1)).trans (KernelEdges.arg3 m ρ c)))

/-- The program's result buffer at the last boundary: the network function of the twelve arguments. -/
theorem result : W10 m ρ c (Proc.devRef .tc main_v94)
    = Net.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W9 m ρ c) (Proc.devRef .tc main_v94) = _
  after_results_simp
  rw [out, batch]
  rfl

end Cert.Gcn.KernelLayer2

end
-- ==== Proof.RefStages.lean ====
/-
  The reference's stages are the shared stage functions, each of the stage before.

  The generated reading of the reference names every operation's value as a function of the program's arguments. Here
  those values are regrouped: the edge indices and weights (computed twice by the reference, once per layer, from the
  same arguments), then per layer the aggregate as a function of the projection, the normalised rows as a function of
  the aggregate, and last the pooled result as a function of the second layer's rows. Each equation holds by unfolding
  the definitions: the operations are the same, in the same order.
-/
import proofs.«113828_j22660247453949_1_alg».proof.Proof.Gen.ReferenceIdeal.Read
import proofs.«113828_j22660247453949_1_alg».proof.Proof.Stages

noncomputable section

namespace Cert.Gcn.RefStages

open Cert.ReferenceIdeal Cert.ReferenceIdeal.Gen Cert.ReferenceIdeal.Read Cert.Gcn.Stages Idealize.ShloMosaic Idealize.ShloMosaic.TcCoe

variable {F : FTy → Type} [FloatOps F]

variable (x0 : (⟨S100000x256, .f32⟩ : BufTy).Contents (Elt F)) (x1 : (⟨S2x1600000, .i32⟩ : BufTy).Contents (Elt F)) (x2 : (⟨S1600000, .f32⟩ : BufTy).Contents (Elt F))
  (x3 : (⟨S100000, .i32⟩ : BufTy).Contents (Elt F)) (x4 : (⟨S256x128, .f32⟩ : BufTy).Contents (Elt F)) (x5 x6 x7 : (⟨S128, .f32⟩ : BufTy).Contents (Elt F))
  (x8 : (⟨S128x64, .f32⟩ : BufTy).Contents (Elt F)) (x9 x10 x11 : (⟨S64, .f32⟩ : BufTy).Contents (Elt F))

/-- The edges' source index, target index and normalisation, as the first layer computes them … -/
theorem ref_row : val_main_v3 (F := F) x1 = rowIdx x1 := rfl
theorem ref_col : val_main_v7 (F := F) x1 = colIdx x1 := rfl
theorem ref_nrm : val_main_v34 (F := F) x1 x2 = edgeNorm x1 x2 := rfl
/-- … and as the second layer computes them again, from the same arguments. -/
theorem ref_row' : val_main_v80 (F := F) x1 = rowIdx x1 := rfl
theorem ref_col' : val_main_v84 (F := F) x1 = colIdx x1 := rfl
theorem ref_nrm' : val_main_v111 (F := F) x1 x2 = edgeNorm x1 x2 := rfl

/-- The first layer's aggregate, from the first projection. -/
theorem ref_agg1 : val_main_v51 (F := F) x0 x1 x2 x4 x5
    = aggregate128 (val_main_v35 (F := F) x0 x4) (rowIdx x1) (colIdx x1) (edgeNorm x1 x2) x5 := rfl

/-- The first layer's output, from its aggregate. -/
theorem ref_norm1 : val_main_v76 (F := F) x0 x1 x2 x4 x5 x6 x7 = hostNorm128 (val_main_v51 (F := F) x0 x1 x2 x4 x5) x6 x7 := rfl

/-- The second projection, of the first layer's output. -/
theorem ref_proj2 : val_main_v112 (F := F) x0 x1 x2 x4 x5 x6 x7 x8
    = Host.dotGeneral dot_S100000x128_S128x64_S100000x64_1_0_0_1_n_n none (val_main_v76 (F := F) x0 x1 x2 x4 x5 x6 x7) x8 := rfl

/-- The second layer's aggregate, from the second projection. -/
theorem ref_agg2 : val_main_v128 (F := F) x0 x1 x2 x4 x5 x6 x7 x8 x9
    = aggregate64 (val_main_v112 (F := F) x0 x1 x2 x4 x5 x6 x7 x8) (rowIdx x1) (colIdx x1) (edgeNorm x1 x2) x9 := rfl

/-- The second layer's output, from its aggregate. -/
theorem ref_norm2 : val_main_v153 (F := F) x0 x1 x2 x4 x5 x6 x7 x8 x9 x10 x11
    = hostNorm64 (val_main_v128 (F := F) x0 x1 x2 x4 x5 x6 x7 x8 x9) x10 x11 := rfl

/-- The result, from the second layer's output. -/
theorem ref_tail : val_main_v171 (F := F) x0 x1 x2 x3 x4 x5 x6 x7 x8 x9 x10 x11
    = poolTail (val_main_v153 (F := F) x0 x1 x2 x4 x5 x6 x7 x8 x9 x10 x11) x3 := rfl

end Cert.Gcn.RefStages

end
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.HostEntry.lean ====
/-
  The reference's clip-and-normalise of the rows of an array, read at one entry.

  On the host the chain is: clip at zero (a maximum against a broadcast zero), the row sums from a zero initial value
  kept as a column and divided by a broadcast count, the column spread back over the columns and subtracted, the same
  mean taken of the squared deviations, epsilon added, the reciprocal root, and the products with a scale row and the
  sum with a shift row, both broadcast down the rows. Each of these reads, at entry (p, q), an entry of row p of its
  operand; put together, entry (p, q) of the result is the function `reluNormEntry` of row p of the input and of the
  q-th scale and shift. The host's contraction of two matrices is read the same way as the sum over the shared index.
-/
import Idealize.ShloMosaic.PureOps.Ideal.Laws
import Idealize.ShloMosaic.Lib.ValueIdx
import Idealize.ShloMosaic.Lib.ValueLayout
import Idealize.ShloMosaic.Lib.Pipeline.Value
import proofs.«113828_j22660247453949_1_alg».proof.Proof.Spec
import proofs.«113828_j22660247453949_1_alg».proof.Proof.LibKeepdims
import proofs.«113828_j22660247453949_1_alg».proof.Proof.LibRowFold
import proofs.«113828_j22660247453949_1_alg».proof.Proof.LibLreluRows
import proofs.«113828_j22660247453949_1_alg».proof.Proof.LibPlainContract

noncomputable section

namespace Cert.Gcn.HostEntry

open Idealize.ShloMosaic Idealize.ShloMosaic.ValueIdx

variable {M n : Nat}

/-- A scalar constant broadcast to any shape reads, everywhere, the constant's value. -/
theorem splat_apply {t : Shape} (h : (⟨0, ![]⟩ : Shape).BroadcastsInDim t (![] : Fin 0 → Fin t.rank)) (b : BitVec 32) (i : t.Idx) :
    broadcastInDim t ![] h (constant (F := Ideal) ⟨0, ![]⟩ .f32 b) i = Ideal.ofBits .f32 b :=
  broadcastInDim_apply _ h _ i (fun a => a.elim0) (fun a => a.elim0)

/-- Clipping at zero, at an entry. -/
theorem clip_apply {t : Shape} (h : (⟨0, ![]⟩ : Shape).BroadcastsInDim t (![] : Fin 0 → Fin t.rank)) (a : FVec Ideal t .f32) (i : t.Idx) :
    maximumf a (broadcastInDim t ![] h (constant (F := Ideal) ⟨0, ![]⟩ .f32 0x00000000#32)) i = max (a i) 0 := by
  show max (a i) (broadcastInDim t ![] h (constant (F := Ideal) ⟨0, ![]⟩ .f32 0x00000000#32) i) = _
  rw [splat_apply, Ideal.ofBits_zero_f32]

/-- The mean of a row kept as a column: at (p, u), the row's sum divided by the count. -/
theorem rowMean_apply (hr : (⟨2, ![M, n]⟩ : Shape).ReducesTo [1] ⟨1, ![M]⟩) (hr' : (⟨2, ![M, n]⟩ : Shape).Reduces [1] ⟨1, ![M]⟩)
    (hu : 0 < (⟨0, ![]⟩ : Shape).numel)
    (hc : (⟨1, ![M]⟩ : Shape).BroadcastsInDim ⟨2, ![M, 1]⟩ (![0] : Fin 1 → Fin (⟨2, ![M, 1]⟩ : Shape).rank))
    (hk : (⟨0, ![]⟩ : Shape).BroadcastsInDim ⟨2, ![M, 1]⟩ (![] : Fin 0 → Fin (⟨2, ![M, 1]⟩ : Shape).rank))
    (cnt : BitVec 32) (x : FVec Ideal ⟨2, ![M, n]⟩ .f32) (p : Fin M) (u : Fin 1) :
    Host.divf (broadcastInDim ⟨2, ![M, 1]⟩ ![0] hc (Host.reduceAdd x (constant (F := Ideal) ⟨0, ![]⟩ .f32 0x00000000#32) hr hu))
        (broadcastInDim ⟨2, ![M, 1]⟩ ![] hk (constant (F := Ideal) ⟨0, ![]⟩ .f32 cnt)) (ix2 p u)
      = Ideal.div (∑ k : Fin n, x (ix2 p k)) (Ideal.ofBits .f32 cnt) := by
  show Ideal.div (broadcastInDim ⟨2, ![M, 1]⟩ ![0] hc (Host.reduceAdd x (constant (F := Ideal) ⟨0, ![]⟩ .f32 0x00000000#32) hr hu) (ix2 p u))
      (broadcastInDim ⟨2, ![M, 1]⟩ ![] hk (constant (F := Ideal) ⟨0, ![]⟩ .f32 cnt) (ix2 p u)) = _
  rw [splat_apply, Cert.Lib.Keepdims.broadcastInDim_a_a1_apply, Cert.Lib.RowFold.hostReduceAdd_row x _ hr hr' hu p]
  show Ideal.div (Ideal.ofBits .f32 0x00000000#32 + _) _ = _
  rw [Ideal.ofBits_zero_f32, zero_add]

/-- The reciprocal root on the host, at an entry. -/
theorem hostRsqrt_apply {t : Shape} (v : FVec Ideal t .f32) (i : t.Idx) : Host.rsqrt v i = Ideal.rsqrt (v i) := rfl

/-- An entry of the reference's clip-and-normalise, from its pieces: `c` the clipped input, `mu` the column of row means,
    `va` the column of mean squared deviations. -/
theorem hostNorm_entry
    (hs : (⟨2, ![M, 1]⟩ : Shape).BroadcastsInDim ⟨2, ![M, n]⟩ (![0, 1] : Fin 2 → Fin (⟨2, ![M, n]⟩ : Shape).rank))
    (hk : (⟨0, ![]⟩ : Shape).BroadcastsInDim ⟨2, ![M, 1]⟩ (![] : Fin 0 → Fin (⟨2, ![M, 1]⟩ : Shape).rank))
    (h1 : (⟨1, ![n]⟩ : Shape).BroadcastsInDim ⟨2, ![1, n]⟩ (![1] : Fin 1 → Fin (⟨2, ![1, n]⟩ : Shape).rank))
    (h2 : (⟨2, ![1, n]⟩ : Shape).BroadcastsInDim ⟨2, ![M, n]⟩ (![0, 1] : Fin 2 → Fin (⟨2, ![M, n]⟩ : Shape).rank))
    (hg : (⟨1, ![n]⟩ : Shape).ShapeCasts ⟨2, ![1, n]⟩)
    (cnt eps : BitVec 32) (a c : FVec Ideal ⟨2, ![M, n]⟩ .f32) (mu va : FVec Ideal ⟨2, ![M, 1]⟩ .f32) (g bt : FVec Ideal ⟨1, ![n]⟩ .f32)
    (hc : ∀ p k, c (ix2 p k) = max (a (ix2 p k)) 0)
    (hmu : ∀ p, mu (ix2 p (0 : Fin 1)) = Ideal.div (∑ k : Fin n, c (ix2 p k)) (Ideal.ofBits .f32 cnt))
    (hva : ∀ p, va (ix2 p (0 : Fin 1))
      = Ideal.div (∑ k : Fin n, (subf c (broadcastInDim ⟨2, ![M, n]⟩ ![0, 1] hs mu)) (ix2 p k) * (subf c (broadcastInDim ⟨2, ![M, n]⟩ ![0, 1] hs mu)) (ix2 p k))
          (Ideal.ofBits .f32 cnt))
    (p : Fin M) (q : Fin n) :
    addf
        (mulf
          (mulf (subf c (broadcastInDim ⟨2, ![M, n]⟩ ![0, 1] hs mu))
            (broadcastInDim ⟨2, ![M, n]⟩ ![0, 1] hs
              (Host.rsqrt (addf va (broadcastInDim ⟨2, ![M, 1]⟩ ![] hk (constant (F := Ideal) ⟨0, ![]⟩ .f32 eps))))))
          (broadcastInDim ⟨2, ![M, n]⟩ ![0, 1] h2 (broadcastInDim ⟨2, ![1, n]⟩ ![1] h1 g)))
        (broadcastInDim ⟨2, ![M, n]⟩ ![0, 1] h2 (broadcastInDim ⟨2, ![1, n]⟩ ![1] h1 bt)) (ix2 p q)
      = Cert.Gcn.reluNormEntry (Ideal.ofBits .f32 cnt) (Ideal.ofBits .f32 eps) (fun k => a (ix2 p k))
          (shapeCast ⟨2, ![1, n]⟩ g hg (ix2 (0 : Fin 1) q)) (shapeCast ⟨2, ![1, n]⟩ bt hg (ix2 (0 : Fin 1) q)) q := by
  have hdev : ∀ k : Fin n, (subf c (broadcastInDim ⟨2, ![M, n]⟩ ![0, 1] hs mu)) (ix2 p k)
      = max (a (ix2 p k)) 0 - Ideal.div (∑ k : Fin n, max (a (ix2 p k)) 0) (Ideal.ofBits .f32 cnt) := by
    intro k
    show c (ix2 p k) - broadcastInDim ⟨2, ![M, n]⟩ ![0, 1] hs mu (ix2 p k) = _
    rw [Cert.Lib.Keepdims.broadcastInDim_a1_ab_apply, hmu, hc]
    exact congrArg (fun s => max (a (ix2 p k)) 0 - Ideal.div s (Ideal.ofBits .f32 cnt)) (Finset.sum_congr rfl fun j _ => hc p j)
  show (subf c (broadcastInDim ⟨2, ![M, n]⟩ ![0, 1] hs mu)) (ix2 p q)
        * broadcastInDim ⟨2, ![M, n]⟩ ![0, 1] hs
            (Host.rsqrt (addf va (broadcastInDim ⟨2, ![M, 1]⟩ ![] hk (constant (F := Ideal) ⟨0, ![]⟩ .f32 eps)))) (ix2 p q)
        * broadcastInDim ⟨2, ![M, n]⟩ ![0, 1] h2 (broadcastInDim ⟨2, ![1, n]⟩ ![1] h1 g) (ix2 p q)
      + broadcastInDim ⟨2, ![M, n]⟩ ![0, 1] h2 (broadcastInDim ⟨2, ![1, n]⟩ ![1] h1 bt) (ix2 p q) = _
  rw [Cert.LibLreluRows.biasRows_apply, Cert.LibLreluRows.biasRows_apply, Cert.Lib.Keepdims.broadcastInDim_a1_ab_apply, hdev q,
    Cert.LibLreluRows.rowCast_apply, Cert.LibLreluRows.rowCast_apply]
  show _ * Ideal.rsqrt (va (ix2 p (0 : Fin 1)) + broadcastInDim ⟨2, ![M, 1]⟩ ![] hk (constant (F := Ideal) ⟨0, ![]⟩ .f32 eps) (ix2 p (0 : Fin 1))) * _ + _ = _
  rw [splat_apply, hva]
  unfold Cert.Gcn.reluNormEntry
  refine congrArg (fun s => (max (a (ix2 p q)) 0 - Ideal.div (∑ k : Fin n, max (a (ix2 p k)) 0) (Ideal.ofBits .f32 cnt))
      * Ideal.rsqrt (Ideal.div s (Ideal.ofBits .f32 cnt) + Ideal.ofBits .f32 eps) * g (ix1 q) + bt (ix1 q)) ?_
  exact Finset.sum_congr rfl fun k _ => by rw [hdev k]

/-- The host's contraction of an M-by-K array with a K-by-N array is the matrix product. -/
theorem dotGeneral_eq_matProd {K N : Nat} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = Cert.Gcn.matProd l r := by
  funext i
  rw [eq_ix2 i]
  exact Cert.LibPlainContract.dotGeneral_plain_apply M K N prec sched l r (i 0) (i 1)

end Cert.Gcn.HostEntry

end
-- ==== Proof.HostNorm.lean ====
/-
  The reference's normalisation and projection stages are the two specification functions.

  The host chain `hostNorm128` (and `hostNorm64`) clips an array at zero and normalises every row; read at an entry it
  is `reluNormEntry` of that row, so as a whole array it is `reluNorm` of the array, with the scale and shift vectors
  laid out as one-row arrays. The host contraction of the node features with a weight matrix is the matrix product.
-/
import proofs.«113828_j22660247453949_1_alg».proof.Proof.Stages
import proofs.«113828_j22660247453949_1_alg».proof.Proof.HostEntry

noncomputable section

namespace Cert.Gcn.HostNorm

open Cert.ReferenceIdeal Cert.ReferenceIdeal.Gen Cert.Gcn.Stages Idealize.ShloMosaic Idealize.ShloMosaic.TcCoe
open Idealize.ShloMosaic.ValueIdx

/-- The reference's clip-and-normalise at width 128 is `reluNorm` with the count 128 and the program's epsilon. -/
theorem norm128 (a : (⟨S100000x128, .f32⟩ : BufTy).Contents (Elt Ideal)) (g bt : (⟨S128, .f32⟩ : BufTy).Contents (Elt Ideal))
    (hg : S128.ShapeCasts S1x128) :
    hostNorm128 (F := Ideal) a g bt
      = Cert.Gcn.reluNorm (M := 100000) (n := 128) (Ideal.ofBits .f32 0x43000000#32) (Ideal.ofBits .f32 0x3727C5AC#32) a
          (shapeCast S1x128 g hg) (shapeCast S1x128 bt hg) := by
  have hred : S100000x128.Reduces [1] S100000 := by decide
  funext i
  rw [eq_ix2 i]
  exact HostEntry.hostNorm_entry (M := 100000) (n := 128) bcast_S100000x1_S100000x128_0_1 bcast_S_S100000x1 bcast_S128_S1x128_1
    bcast_S1x128_S100000x128_0_1 hg 0x43000000#32 0x3727C5AC#32 a
    (maximumf (F := Ideal) (s := S100000x128) (φ := .f32) a (broadcastInDim S100000x128 ![] bcast_S_S100000x128 (constant (F := Ideal) S_ .f32 0x00000000#32)))
    (rowMean128 (F := Ideal) (maximumf (F := Ideal) (s := S100000x128) (φ := .f32) a (broadcastInDim S100000x128 ![] bcast_S_S100000x128 (constant (F := Ideal) S_ .f32 0x00000000#32))))
    (rowMean128 (F := Ideal) (mulf (F := Ideal) (s := S100000x128) (φ := .f32) (centered128 (F := Ideal) a) (centered128 (F := Ideal) a))) g bt
    (fun p k => HostEntry.clip_apply bcast_S_S100000x128 a (ix2 p k))
    (fun p => HostEntry.rowMean_apply reducesTo_S100000x128_S100000_d1 hred h_S_ bcast_S100000_S100000x1_0 bcast_S_S100000x1
      0x43000000#32 (maximumf (F := Ideal) (s := S100000x128) (φ := .f32) a (broadcastInDim S100000x128 ![] bcast_S_S100000x128 (constant (F := Ideal) S_ .f32 0x00000000#32))) p 0)
    (fun p => HostEntry.rowMean_apply reducesTo_S100000x128_S100000_d1 hred h_S_ bcast_S100000_S100000x1_0 bcast_S_S100000x1
      0x43000000#32 (mulf (F := Ideal) (s := S100000x128) (φ := .f32) (centered128 (F := Ideal) a) (centered128 (F := Ideal) a)) p 0)
    (i 0) (i 1)

/-- The reference's clip-and-normalise at width 64 is `reluNorm` with the count 64 and the program's epsilon. -/
theorem norm64 (a : (⟨S100000x64, .f32⟩ : BufTy).Contents (Elt Ideal)) (g bt : (⟨S64, .f32⟩ : BufTy).Contents (Elt Ideal))
    (hg : S64.ShapeCasts S1x64) :
    hostNorm64 (F := Ideal) a g bt
      = Cert.Gcn.reluNorm (M := 100000) (n := 64) (Ideal.ofBits .f32 0x42800000#32) (Ideal.ofBits .f32 0x3727C5AC#32) a
          (shapeCast S1x64 g hg) (shapeCast S1x64 bt hg) := by
  have hred : S100000x64.Reduces [1] S100000 := by decide
  funext i
  rw [eq_ix2 i]
  exact HostEntry.hostNorm_entry (M := 100000) (n := 64) bcast_S100000x1_S100000x64_0_1 bcast_S_S100000x1 bcast_S64_S1x64_1
    bcast_S1x64_S100000x64_0_1 hg 0x42800000#32 0x3727C5AC#32 a
    (maximumf (F := Ideal) (s := S100000x64) (φ := .f32) a (broadcastInDim S100000x64 ![] bcast_S_S100000x64 (constant (F := Ideal) S_ .f32 0x00000000#32)))
    (rowMean64 (F := Ideal) (maximumf (F := Ideal) (s := S100000x64) (φ := .f32) a (broadcastInDim S100000x64 ![] bcast_S_S100000x64 (constant (F := Ideal) S_ .f32 0x00000000#32))))
    (rowMean64 (F := Ideal) (mulf (F := Ideal) (s := S100000x64) (φ := .f32) (centered64 (F := Ideal) a) (centered64 (F := Ideal) a))) g bt
    (fun p k => HostEntry.clip_apply bcast_S_S100000x64 a (ix2 p k))
    (fun p => HostEntry.rowMean_apply reducesTo_S100000x64_S100000_d1 hred h_S_ bcast_S100000_S100000x1_0 bcast_S_S100000x1
      0x42800000#32 (maximumf (F := Ideal) (s := S100000x64) (φ := .f32) a (broadcastInDim S100000x64 ![] bcast_S_S100000x64 (constant (F := Ideal) S_ .f32 0x00000000#32))) p 0)
    (fun p => HostEntry.rowMean_apply reducesTo_S100000x64_S100000_d1 hred h_S_ bcast_S100000_S100000x1_0 bcast_S_S100000x1
      0x42800000#32 (mulf (F := Ideal) (s := S100000x64) (φ := .f32) (centered64 (F := Ideal) a) (centered64 (F := Ideal) a)) p 0)
    (i 0) (i 1)

/-- The reference's first projection is the matrix product of the node features with the first weight matrix. -/
theorem proj1 (x : FVec Ideal S100000x256 .f32) (w : FVec Ideal S256x128 .f32) :
    Host.dotGeneral (F := Ideal) dot_S100000x256_S256x128_S100000x128_1_0_0_1_n_n none x w = Cert.Gcn.matProd (M := 100000) (K := 256) (N := 128) x w :=
  HostEntry.dotGeneral_eq_matProd (M := 100000) (K := 256) (N := 128) none .single x w

/-- The second projection likewise. -/
theorem proj2 (x : FVec Ideal S100000x128 .f32) (w : FVec Ideal S128x64 .f32) :
    Host.dotGeneral (F := Ideal) dot_S100000x128_S128x64_S100000x64_1_0_0_1_n_n none x w = Cert.Gcn.matProd (M := 100000) (K := 128) (N := 64) x w :=
  HostEntry.dotGeneral_eq_matProd (M := 100000) (K := 128) (N := 64) none .single x w

end Cert.Gcn.HostNorm

end
-- ==== Proof.RefNet.lean ====
/-
  The reference computes the network.

  Its result is the pooling tail of its second layer's output; each layer's output is the host's clip-and-normalise of
  the layer's aggregate, which is the specification's row normalisation; each aggregate is the shared aggregation of
  the layer's projection, a host contraction, which is the matrix product. Rewriting from the result inwards turns
  the reference's value into the network function of its arguments.
-/
import proofs.«113828_j22660247453949_1_alg».proof.Proof.RefStages
import proofs.«113828_j22660247453949_1_alg».proof.Proof.HostNorm
import proofs.«113828_j22660247453949_1_alg».proof.Proof.Net

noncomputable section

namespace Cert.Gcn.RefNet

open Cert.ReferenceIdeal Cert.ReferenceIdeal.Gen Cert.ReferenceIdeal.Read Cert.Gcn.Stages Idealize.ShloMosaic Idealize.ShloMosaic.TcCoe

variable (x0 : (⟨S100000x256, .f32⟩ : BufTy).Contents (Elt Ideal)) (x1 : (⟨S2x1600000, .i32⟩ : BufTy).Contents (Elt Ideal)) (x2 : (⟨S1600000, .f32⟩ : BufTy).Contents (Elt Ideal))
  (x3 : (⟨S100000, .i32⟩ : BufTy).Contents (Elt Ideal)) (x4 : (⟨S256x128, .f32⟩ : BufTy).Contents (Elt Ideal)) (x5 x6 x7 : (⟨S128, .f32⟩ : BufTy).Contents (Elt Ideal))
  (x8 : (⟨S128x64, .f32⟩ : BufTy).Contents (Elt Ideal)) (x9 x10 x11 : (⟨S64, .f32⟩ : BufTy).Contents (Elt Ideal))

/-- The first layer's aggregate. -/
theorem agg1 : val_main_v51 (F := Ideal) x0 x1 x2 x4 x5 = Net.agg1 x0 x1 x2 x4 x5 :=
  (RefStages.ref_agg1 x0 x1 x2 x4 x5).trans
    (congrArg (fun h : (⟨S100000x128, .f32⟩ : BufTy).Contents (Elt Ideal) => aggregate128 (F := Ideal) h (rowIdx x1) (colIdx x1) (edgeNorm x1 x2) x5)
      (HostNorm.proj1 x0 x4))

/-- The first layer's output. -/
theorem out1 : val_main_v76 (F := Ideal) x0 x1 x2 x4 x5 x6 x7 = Net.out1 x0 x1 x2 x4 x5 x6 x7 :=
  (RefStages.ref_norm1 x0 x1 x2 x4 x5 x6 x7).trans
    ((congrArg (fun a : (⟨S100000x128, .f32⟩ : BufTy).Contents (Elt Ideal) => hostNorm128 (F := Ideal) a x6 x7) (agg1 x0 x1 x2 x4 x5)).trans
      (HostNorm.norm128 (Net.agg1 x0 x1 x2 x4 x5) x6 x7 Net.row128))

/-- The second layer's aggregate. -/
theorem agg2 : val_main_v128 (F := Ideal) x0 x1 x2 x4 x5 x6 x7 x8 x9 = Net.agg2 x0 x1 x2 x4 x5 x6 x7 x8 x9 :=
  (RefStages.ref_agg2 x0 x1 x2 x4 x5 x6 x7 x8 x9).trans
    (congrArg (fun h : (⟨S100000x64, .f32⟩ : BufTy).Contents (Elt Ideal) => aggregate64 (F := Ideal) h (rowIdx x1) (colIdx x1) (edgeNorm x1 x2) x9)
      ((RefStages.ref_proj2 x0 x1 x2 x4 x5 x6 x7 x8).trans
        ((congrArg (fun y : (⟨S100000x128, .f32⟩ : BufTy).Contents (Elt Ideal) =>
            Host.dotGeneral (F := Ideal) (φ₁ := .f32) (φ₂ := .f32) dot_S100000x128_S128x64_S100000x64_1_0_0_1_n_n none y x8) (out1 x0 x1 x2 x4 x5 x6 x7)).trans
          (HostNorm.proj2 (Net.out1 x0 x1 x2 x4 x5 x6 x7) x8))))

/-- The second layer's output. -/
theorem out2 : val_main_v153 (F := Ideal) x0 x1 x2 x4 x5 x6 x7 x8 x9 x10 x11 = Net.out2 x0 x1 x2 x4 x5 x6 x7 x8 x9 x10 x11 :=
  (RefStages.ref_norm2 x0 x1 x2 x4 x5 x6 x7 x8 x9 x10 x11).trans
    ((congrArg (fun a : (⟨S100000x64, .f32⟩ : BufTy).Contents (Elt Ideal) => hostNorm64 (F := Ideal) a x10 x11) (agg2 x0 x1 x2 x4 x5 x6 x7 x8 x9)).trans
      (HostNorm.norm64 (Net.agg2 x0 x1 x2 x4 x5 x6 x7 x8 x9) x10 x11 Net.row64))

/-- The reference's result is the network of its arguments. -/
theorem result : val_main_v171 (F := Ideal) x0 x1 x2 x3 x4 x5 x6 x7 x8 x9 x10 x11 = Net.result x0 x1 x2 x3 x4 x5 x6 x7 x8 x9 x10 x11 :=
  (RefStages.ref_tail x0 x1 x2 x3 x4 x5 x6 x7 x8 x9 x10 x11).trans
    (congrArg (fun h : (⟨S100000x64, .f32⟩ : BufTy).Contents (Elt Ideal) => poolTail (F := Ideal) h x3) (out2 x0 x1 x2 x4 x5 x6 x7 x8 x9 x10 x11))

end Cert.Gcn.RefNet

end
-- ==== Proof.lean ====
/-
  The certificate of a two-layer graph convolution with a pooled, squashed readout.

  Both programs compute one function of the twelve arguments (the node features, the edge list, the edge weights, the
  graph index of every node, and per layer a weight matrix, a bias, a scale and a shift): per layer, project the node
  rows, gather the projected rows at the edges' sources, scale them by the symmetric degree normalisation, add them up
  at the edges' targets, add the bias, clip at zero and normalise every row; then average the rows of every graph and
  apply the logistic function. The reference spells all of it as host operations. The kernel's program hands the two
  projections and the two clip-and-normalise steps to kernels that work on blocks of 5000 rows; everything else it
  spells by the same host operations as the reference.

  Read on the extended reals, a projection kernel's block of rows is the same sum over the shared index as the host
  contraction (rounding the operands to the matrix unit's format changes no exact value, and the blocks tile the
  rows), and a normalisation kernel's block is, row by row, the same chain of exact operations as the host's. So both
  programs end at the network function of their arguments, and arguments that agree give equal results. No law beyond
  this reading is used, so the finiteness of the inputs is never opened. The pass from the kernel's text to its
  reading on the extended reals rewrote nothing, so there is nothing to preserve.
-/
import proofs.«113828_j22660247453949_1_alg».proof.Defs
import proofs.«113828_j22660247453949_1_alg».proof.Proof.Gen.Kernel
import proofs.«113828_j22660247453949_1_alg».proof.Proof.Gen.Kernel.Skeleton
import proofs.«113828_j22660247453949_1_alg».proof.Proof.Gen.Kernel.Launch
import proofs.«113828_j22660247453949_1_alg».proof.Proof.Gen.Kernel.Points
import proofs.«113828_j22660247453949_1_alg».proof.Proof.Gen.Kernel.Frame
import proofs.«113828_j22660247453949_1_alg».proof.Proof.Gen.KernelIdeal
import proofs.«113828_j22660247453949_1_alg».proof.Proof.Gen.KernelIdeal.Skeleton
import proofs.«113828_j22660247453949_1_alg».proof.Proof.Gen.KernelIdeal.Launch
import proofs.«113828_j22660247453949_1_alg».proof.Proof.Gen.KernelIdeal.Points
import proofs.«113828_j22660247453949_1_alg».proof.Proof.Gen.KernelIdeal.Frame
import proofs.«113828_j22660247453949_1_alg».proof.Proof.Gen.ReferenceIdeal
import proofs.«113828_j22660247453949_1_alg».proof.Proof.Gen.ReferenceIdeal.Run
import proofs.«113828_j22660247453949_1_alg».proof.Proof.Gen.ReferenceIdeal.Read
import proofs.«113828_j22660247453949_1_alg».proof.Proof.Gen.Pre_finite_inputs
import proofs.«113828_j22660247453949_1_alg».proof.Proof.KernelRun
import proofs.«113828_j22660247453949_1_alg».proof.Proof.KernelLayer2
import proofs.«113828_j22660247453949_1_alg».proof.Proof.RefNet
import Idealize.ShloMosaic.Adequacy
import Idealize.ShloMosaic.Init

noncomputable section

namespace Cert.Proof

open Idealize.ShloMosaic Idealize.SL.Sem

/-- The kernel's program as printed runs, and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments alone: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end at the network function of their arguments, which agree. -/
theorem algebraic : Cert.algebraic_KernelIdeal_ReferenceIdeal := by
  intro m ρ m' ρ' _ hagree
  refine ⟨fun c => Cert.Gcn.Net.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.Gcn.KernelLayer2.result m ρ c), (h c).2⟩) (Cert.Gcn.KernelRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v171_eq, Cert.Gcn.RefNet.result, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
